-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x3072 : Shape := ⟨3, ![4, 2048, 3072]⟩
abbrev S16384x3072 : Shape := ⟨2, ![16384, 3072]⟩
abbrev S16384 : Shape := ⟨1, ![16384]⟩
abbrev S3072x8192 : Shape := ⟨2, ![3072, 8192]⟩
abbrev S3072 : Shape := ⟨1, ![3072]⟩
abbrev S_ : Shape := ⟨0, ![]⟩

class Facts : Prop where
  bcast_S_S4x2048x3072 : S_.BroadcastsInDim S4x2048x3072 (![] : Fin 0 → Fin S4x2048x3072.rank)
  reducesTo_S4x2048x3072_S_d0_1_2 : S4x2048x3072.ReducesTo [0, 1, 2] S_
  h_S_ : 0 < S_.numel
  bcast_S_S16384 : S_.BroadcastsInDim S16384 (![] : Fin 0 → Fin S16384.rank)
  reducesTo_S16384_S_d0 : S16384.ReducesTo [0] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S4x2048x3072 .f32) (main_arg1 : IVec S16384x3072 32) (main_arg2 : FVec F S16384 .f32) (main_arg3 : IVec S3072x8192 32) (main_arg4 : FVec F S3072 .f32) : IVec S_ 1 :=
  let main_v0 : FVec F S4x2048x3072 .f32 := Host.absf main_arg0
  let main_cst : FVec F S_ .f32 := constant S_ .f32 0x7F800000#32
  let main_v1 : FVec F S4x2048x3072 .f32 := broadcastInDim S4x2048x3072 ![] bcast_S_S4x2048x3072 main_cst
  let main_v2 : IVec S4x2048x3072 1 := cmpf .olt main_v0 main_v1
  let main_c : IVec S_ 1 := constantI S_ 1 1#1
  let main_v3 : IVec S_ 1 := (fun x v => Host.reduce IntOp.andi x v reducesTo_S4x2048x3072_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S3072 .f32 := Host.absf main_arg4
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S4x2048x3072 : Shape := ⟨3, ![4, 2048, 3072]⟩
abbrev S16384x3072 : Shape := ⟨2, ![16384, 3072]⟩
abbrev S16384 : Shape := ⟨1, ![16384]⟩
abbrev S3072x8192 : Shape := ⟨2, ![3072, 8192]⟩
abbrev S3072 : Shape := ⟨1, ![3072]⟩
abbrev S8192x3072 : Shape := ⟨2, ![8192, 3072]⟩
abbrev S512x3072 : Shape := ⟨2, ![512, 3072]⟩
abbrev S256x3072 : Shape := ⟨2, ![256, 3072]⟩
abbrev S256 : Shape := ⟨1, ![256]⟩
abbrev S3072x256 : Shape := ⟨2, ![3072, 256]⟩
abbrev S512x256 : Shape := ⟨2, ![512, 256]⟩
abbrev S1x256 : Shape := ⟨2, ![1, 256]⟩
abbrev S1x3072 : Shape := ⟨2, ![1, 3072]⟩

abbrev nBuf : Space → Nat
  | .hbm => 11
  | .vmem => 15
  | .smem => 0
  | _ => 0

abbrev bufTy : (tb : Table) → Fin (tcTables nBuf tb) → BufTy
  | .hbm, ⟨0, _⟩ => ⟨S4x2048x3072, .f32⟩
  | .hbm, ⟨1, _⟩ => ⟨S16384x3072, .i32⟩
  | .hbm, ⟨2, _⟩ => ⟨S16384, .f32⟩
  | .hbm, ⟨3, _⟩ => ⟨S3072x8192, .i32⟩
  | .hbm, ⟨4, _⟩ => ⟨S3072, .f32⟩
  | .hbm, ⟨5, _⟩ => ⟨S8192x3072, .f32⟩
  | .hbm, ⟨6, _⟩ => ⟨S8192x3072, .bf16⟩
  | .hbm, ⟨7, _⟩ => ⟨S16384x3072, .bf16⟩
  | .hbm, ⟨8, _⟩ => ⟨S3072x8192, .bf16⟩
  | .hbm, ⟨9, _⟩ => ⟨S8192x3072, .f32⟩
  | .hbm, ⟨10, _⟩ => ⟨S4x2048x3072, .f32⟩
  | .local _ .vmem, ⟨0, _⟩ => ⟨S512x3072, .bf16⟩
  | .local _ .vmem, ⟨1, _⟩ => ⟨S512x3072, .bf16⟩
  | .local _ .vmem, ⟨2, _⟩ => ⟨S256x3072, .bf16⟩
  | .local _ .vmem, ⟨3, _⟩ => ⟨S256x3072, .bf16⟩
  | .local _ .vmem, ⟨4, _⟩ => ⟨S256x3072, .bf16⟩
  | .local _ .vmem, ⟨5, _⟩ => ⟨S256x3072, .bf16⟩
  | .local _ .vmem, ⟨6, _⟩ => ⟨S256, .f32⟩
  | .local _ .vmem, ⟨7, _⟩ => ⟨S256, .f32⟩
  | .local _ .vmem, ⟨8, _⟩ => ⟨S256, .f32⟩
  | .local _ .vmem, ⟨9, _⟩ => ⟨S256, .f32⟩
  | .local _ .vmem, ⟨10, _⟩ => ⟨S3072x256, .bf16⟩
  | .local _ .vmem, ⟨11, _⟩ => ⟨S3072x256, .bf16⟩
  | .local _ .vmem, ⟨12, _⟩ => ⟨S3072, .f32⟩
  | .local _ .vmem, ⟨13, _⟩ => ⟨S512x3072, .f32⟩
  | .local _ .vmem, ⟨14, _⟩ => ⟨S512x3072, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg1 : BitVec 32 := BitVec.ofNat 32 (i 1).val
  let c31_i32 : BitVec 32 := 31#32
  let v31 : BitVec 1 := Scalar.cmpi .eq arg1 c31_i32
  let v32 : BitVec 32 := Scalar.extui v31
  let c0_i32_16 : BitVec 32 := 0#32
  let v33 : BitVec 1 := Scalar.cmpi .ne v32 c0_i32_16
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c0_i32 : BitVec 32 := 0#32
  let c0_i32_0 : BitVec 32 := 0#32
  ![v0.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c0_i32 : BitVec 32 := 0#32
  ![v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3072x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

class Facts₀ : Prop where
  shapeCasts_S4x2048x3072_S8192x3072 : S4x2048x3072.ShapeCasts S8192x3072
  bitsLt_bf16_f32 : FTy.bits .bf16 < FTy.bits .f32
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S3072x256_S3072x256_0_0 : ∀ a, (![0, 0] : Fin 2 → Nat) a + S3072x256.size a ≤ S3072x256.size a
  h_S3072x256 : 0 < S3072x256.numel
  shapeCasts_S3072x256_S3072x256 : S3072x256.ShapeCasts S3072x256
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  shapeCasts_S8192x3072_S4x2048x3072 : S8192x3072.ShapeCasts S4x2048x3072
  dot_S512x3072_S256x3072_S512x256_1_1_0_0_n_n_wf : DotDims.WF S512x3072 S256x3072 S512x256 [1] [1] [0] [0] [] []
  dot_S512x256_S3072x256_S512x3072_1_1_0_0_n_n_wf : DotDims.WF S512x256 S3072x256 S512x3072 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S8192x3072.size a
  hwx0_0 : ∀ i : grid0.Coords, EltTy.bits .bf16 = 32 ∨ (Rect.block (s := S8192x3072) S512x3072.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x3072.size a ≤ S16384x3072.size a
  hwx0_1 : ∀ i : grid0.Coords, EltTy.bits .bf16 = 32 ∨ (Rect.block (s := S16384x3072) S256x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x3072.size a ≤ S16384x3072.size a
  hwx0_2 : ∀ i : grid0.Coords, EltTy.bits .bf16 = 32 ∨ (Rect.block (s := S16384x3072) S256x3072.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S16384.size a
  hwx0_3 : ∀ i : grid0.Coords, EltTy.bits .f32 = 32 ∨ (Rect.block (s := S16384) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S16384.size a
  hwx0_4 : ∀ i : grid0.Coords, EltTy.bits .f32 = 32 ∨ (Rect.block (s := S16384) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3072x256.size a ≤ S3072x8192.size a
  hwx0_5 : ∀ i : grid0.Coords, EltTy.bits .bf16 = 32 ∨ (Rect.block (s := S3072x8192) S3072x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3072.size a ≤ S3072.size a
  hwx0_6 : ∀ i : grid0.Coords, EltTy.bits .f32 = 32 ∨ (Rect.block (s := S3072) S3072.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x3072.size a ≤ S8192x3072.size a
  hwx0_7 : ∀ i : grid0.Coords, EltTy.bits .f32 = 32 ∨ (Rect.block (s := S8192x3072) S512x3072.size (cc0_transform_7 i) (hinb0_7 i)).WholeWords (EltTy.packing .f32)

variable [Facts₀]

def dot_S512x3072_S256x3072_S512x256_1_1_0_0_n_n : DotDims S512x3072 S256x3072 S512x256 where
  lhsContracting := [1]
  rhsContracting := [1]
  lhsNonContracting := [0]
  rhsNonContracting := [0]
  lhsBatch := []
  rhsBatch := []
  wf := dot_S512x3072_S256x3072_S512x256_1_1_0_0_n_n_wf
def dot_S512x256_S3072x256_S512x3072_1_1_0_0_n_n : DotDims S512x256 S3072x256 S512x3072 where
  lhsContracting := [1]
  rhsContracting := [1]
  lhsNonContracting := [0]
  rhsNonContracting := [0]
  lhsBatch := []
  rhsBatch := []
  wf := dot_S512x256_S3072x256_S512x3072_1_1_0_0_n_n_wf

abbrev win0_0 : Pipeline.Window sig grid0 :=
  Pipeline.Window.ofSpec (Memref.whole main_v1) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x3072.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S3072x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S3072.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S512x3072.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4x2048x3072 : Shape := ⟨3, ![4, 2048, 3072]⟩
abbrev S16384x3072 : Shape := ⟨2, ![16384, 3072]⟩
abbrev S16384 : Shape := ⟨1, ![16384]⟩
abbrev S3072x8192 : Shape := ⟨2, ![3072, 8192]⟩
abbrev S3072 : Shape := ⟨1, ![3072]⟩
abbrev S4x2048x16384 : Shape := ⟨3, ![4, 2048, 16384]⟩
abbrev S1x1x16384 : Shape := ⟨3, ![1, 1, 16384]⟩
abbrev S4x2048x8192 : Shape := ⟨3, ![4, 2048, 8192]⟩
abbrev S_ : Shape := ⟨0, ![]⟩
abbrev S1x1x3072 : Shape := ⟨3, ![1, 1, 3072]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S16384x3072, .i32⟩
  | .hbm, ⟨2, _⟩ => ⟨S16384, .f32⟩
  | .hbm, ⟨3, _⟩ => ⟨S3072x8192, .i32⟩
  | .hbm, ⟨4, _⟩ => ⟨S3072, .f32⟩
  | .hbm, ⟨5, _⟩ => ⟨S16384x3072, .f32⟩
  | .hbm, ⟨6, _⟩ => ⟨S4x2048x16384, .f32⟩
  | .hbm, ⟨7, _⟩ => ⟨S1x1x16384, .f32⟩
  | .hbm, ⟨8, _⟩ => ⟨S4x2048x16384, .f32⟩
  | .hbm, ⟨9, _⟩ => ⟨S4x2048x16384, .f32⟩
  | .hbm, ⟨10, _⟩ => ⟨S4x2048x8192, .f32⟩
  | .hbm, ⟨11, _⟩ => ⟨S4x2048x8192, .f32⟩
  | .hbm, ⟨12, _⟩ => ⟨S4x2048x8192, .f32⟩
  | .hbm, ⟨13, _⟩ => ⟨S4x2048x8192, .f32⟩
  | .hbm, ⟨14, _⟩ => ⟨S_, .f32⟩
  | .hbm, ⟨15, _⟩ => ⟨S4x2048x8192, .f32⟩
  | .hbm, ⟨16, _⟩ => ⟨S4x2048x8192, .f32⟩
  | .hbm, ⟨17, _⟩ => ⟨S_, .f32⟩
  | .hbm, ⟨18, _⟩ => ⟨S4x2048x8192, .f32⟩
  | .hbm, ⟨19, _⟩ => ⟨S4x2048x8192, .f32⟩
  | .hbm, ⟨20, _⟩ => ⟨S4x2048x8192, .f32⟩
  | .hbm, ⟨21, _⟩ => ⟨S4x2048x8192, .f32⟩
  | .hbm, ⟨22, _⟩ => ⟨S3072x8192, .f32⟩
  | .hbm, ⟨23, _⟩ => ⟨S4x2048x3072, .f32⟩
  | .hbm, ⟨24, _⟩ => ⟨S1x1x3072, .f32⟩
  | .hbm, ⟨25, _⟩ => ⟨S4x2048x3072, .f32⟩
  | .hbm, ⟨26, _⟩ => ⟨S4x2048x3072, .f32⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]

class Facts₀ : Prop where
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  slices_S4x2048x16384_S4x2048x8192_0_0_0 : S4x2048x16384.Slices ![0, 0, 0] S4x2048x8192
  slices_S4x2048x16384_S4x2048x8192_0_0_8192 : S4x2048x16384.Slices ![0, 0, 8192] S4x2048x8192
  bcast_S_S4x2048x8192 : S_.BroadcastsInDim S4x2048x8192 (![] : Fin 0 → Fin S4x2048x8192.rank)
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  dot_S4x2048x3072_S16384x3072_S4x2048x16384_2_1_01_0_n_n_wf : DotDims.WF S4x2048x3072 S16384x3072 S4x2048x16384 [2] [1] [0, 1] [0] [] []
  dot_S4x2048x8192_S3072x8192_S4x2048x3072_2_1_01_0_n_n_wf : DotDims.WF S4x2048x8192 S3072x8192 S4x2048x3072 [2] [1] [0, 1] [0] [] []

variable [Facts₀]

def dot_S4x2048x3072_S16384x3072_S4x2048x16384_2_1_01_0_n_n : DotDims S4x2048x3072 S16384x3072 S4x2048x16384 where
  lhsContracting := [2]
  rhsContracting := [1]
  lhsNonContracting := [0, 1]
  rhsNonContracting := [0]
  lhsBatch := []
  rhsBatch := []
  wf := dot_S4x2048x3072_S16384x3072_S4x2048x16384_2_1_01_0_n_n_wf
def dot_S4x2048x8192_S3072x8192_S4x2048x3072_2_1_01_0_n_n : DotDims S4x2048x8192 S3072x8192 S4x2048x3072 where
  lhsContracting := [2]
  rhsContracting := [1]
  lhsNonContracting := [0, 1]
  rhsNonContracting := [0]
  lhsBatch := []
  rhsBatch := []
  wf := dot_S4x2048x8192_S3072x8192_S4x2048x3072_2_1_01_0_n_n_wf

class Facts : Prop extends Facts₀ where

variable [Facts]
-- ==== Proof.KbSched.lean ====
/-
  The schedule of the fused kernel's one grid, 16 row tiles by 32 tiles of the intermediate axis (point t is row tile
  t / 32 at intermediate tile t % 32), and the arrays as the kernel finds them.

  The accumulator is cleared exactly at the points with t % 32 = 0 and the output block is stored exactly at the points
  with t % 32 = 31; at every other point the output window is idle and is not written back.  Each of the seven input
  windows holds, at every point, its block of the array the host operations before the call produced.
-/
import proofs.«108920_j48241072668862_2_alg».proof.Proof.Gen.Kernel.Launch
import proofs.«108920_j48241072668862_2_alg».proof.Proof.Gen.Kernel.Skeleton
import proofs.«108920_j48241072668862_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the call -/

/-- The core's buffers when the kernel is entered: the four host operations before it (a reshape of x, the change of
    format of x and the two integer-to-float conversions of the weights) have run. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations, the kernel call, and one more host operation (the reshape of the result). -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-! ## The windows' blocks -/

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block of the array at every grid point, whether the point fetches it or
    the block index has not moved since the last fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block of the array at every grid point, whether the point fetches it or
    the block index has not moved since the last fetch. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block of the array at every grid point, whether the point fetches it or
    the block index has not moved since the last fetch. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block of the array at every grid point, whether the point fetches it or
    the block index has not moved since the last fetch. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block of the array at every grid point, whether the point fetches it or
    the block index has not moved since the last fetch. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block of the array at every grid point, whether the point fetches it or
    the block index has not moved since the last fetch. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block of the array at every grid point, whether the point fetches it or
    the block index has not moved since the last fetch. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, in closed form -/

/-- "This is the first intermediate tile of the row tile": the accumulator is cleared. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 32 = 0 :=
  (by decide +kernel : ∀ t : Fin grid0.N, cond0 (grid0.coords t) ↔ t.val % 32 = 0)

/-- "This is the last intermediate tile of the row tile": the scaled accumulator is stored into the output block. -/
abbrev cond1 (i : grid0.Coords) : Prop := k0_cond2 i = 1#1
theorem hcond1 : ∀ t : Fin cfg0.N, cond1 (grid0.coords t) ↔ t.val % 32 = 31 :=
  (by decide +kernel : ∀ t : Fin grid0.N, cond1 (grid0.coords t) ↔ t.val % 32 = 31)

/-- Where the output block is not stored the output window is idle and is not written back; where it is stored it is live. -/
theorem idle7 : ∀ t : Fin cfg0.N, ¬cond1 (grid0.coords t) → cfg0.idle 7 (grid0.coords t) = true := by decide +kernel
theorem noFlush7 : ∀ t : Fin cfg0.N, ¬cond1 (grid0.coords t) → (cfg0.win 7).flush t = false := by decide +kernel
theorem live7 : ∀ t : Fin cfg0.N, cond1 (grid0.coords t) → cfg0.idle 7 (grid0.coords t) = false := by decide +kernel

/-! ## The staging buffers the body is called with -/

abbrev ms0 (t : Fin cfg0.N) : Memref sig .tc .vmem S512x3072 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x3072 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x3072 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S3072x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S3072 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x3072 .f32 := win0_7.stage (cfg0.slots t 7)
abbrev hs7 (t : Fin cfg0.N) : (ms7 t).IsWhole := hstage0_7 ((cfg0.slots t 7).cast nbuf0_7)
/-- The accumulator: a scratch buffer of the kernel's own, carried from point to point. -/
abbrev scM : Memref sig .tc .vmem S512x3072 .f32 := Memref.whole cc0_scratch0
abbrev VS : View sig .tc .vmem S512x3072 .f32 := scM.view
/-- A staging buffer of the output window, through which its contents are stated. -/
abbrev VO : View sig .tc .vmem S512x3072 .f32 := (Memref.whole cc0_stg7_0 : Memref sig .tc .vmem S512x3072 .f32).view

/-- The kernel's scoped buffers that are no staging buffer: the accumulator alone. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Frame

end
-- ==== Proof.KbRunA.lean ====
/-
  The kernel's body run at the FIRST intermediate tile of a row tile: the accumulator is cleared, then this tile's partial product is added; nothing is stored into the output block.

  The run is symbolic: every input staging buffer holds given contents and is handed back unchanged; what the body's
  stores leave in the accumulator (and, at the last tile, in the output block) is recorded as the list of written
  pieces, which the run itself finds.
-/
import proofs.«108920_j48241072668862_2_alg».proof.Proof.KbSched

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the FIRST intermediate tile of a row tile: the accumulator is cleared, then this tile's partial product is added; nothing is stored into the output block. -/
noncomputable def kernelRun_A (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : cond0 i) (hc1 : ¬cond1 i)
    (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) :
    Σ' (L7 : List (View.Piece (Elt F) S512x3072 .f32)), { LS : List (View.Piece (Elt F) S512x3072 .f32) //
      ∀ (xi7 : Vec F S512x3072 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__fused_mlp_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__fused_mlp_kernel_eq_skeleton]; unfold cc0__fused_mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.Kernel.Frame

end
-- ==== Proof.KbRunB.lean ====
/-
  The kernel's body run at a MIDDLE intermediate tile: this tile's partial product is added to the accumulator the point before left; nothing is stored into the output block.

  The run is symbolic: every input staging buffer holds given contents and is handed back unchanged; what the body's
  stores leave in the accumulator (and, at the last tile, in the output block) is recorded as the list of written
  pieces, which the run itself finds.
-/
import proofs.«108920_j48241072668862_2_alg».proof.Proof.KbRunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a MIDDLE intermediate tile: this tile's partial product is added to the accumulator the point before left; nothing is stored into the output block. -/
noncomputable def kernelRun_B (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc1 : ¬cond1 i)
    (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) (xs : Vec F S512x3072 .f32) :
    Σ' (L7 : List (View.Piece (Elt F) S512x3072 .f32)), { LS : List (View.Piece (Elt F) S512x3072 .f32) //
      ∀ (xi7 : Vec F S512x3072 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__fused_mlp_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__fused_mlp_kernel_eq_skeleton]; unfold cc0__fused_mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.Kernel.Frame

end
-- ==== Proof.KbRunC.lean ====
/-
  The kernel's body run at the LAST intermediate tile of a row tile: this tile's partial product is added to the accumulator, and the accumulator, scaled per output channel, is stored into the output block.

  The run is symbolic: every input staging buffer holds given contents and is handed back unchanged; what the body's
  stores leave in the accumulator (and, at the last tile, in the output block) is recorded as the list of written
  pieces, which the run itself finds.
-/
import proofs.«108920_j48241072668862_2_alg».proof.Proof.KbRunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the LAST intermediate tile of a row tile: this tile's partial product is added to the accumulator, and the accumulator, scaled per output channel, is stored into the output block. -/
noncomputable def kernelRun_C (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc1 : cond1 i)
    (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) (xs : Vec F S512x3072 .f32) :
    Σ' (L7 : List (View.Piece (Elt F) S512x3072 .f32)), { LS : List (View.Piece (Elt F) S512x3072 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc0__fused_mlp_kernel i arg2 harg2 arg3 harg3 arg4 harg4 arg5 harg5 arg6 harg6 arg7 harg7 arg8 harg8 arg9 harg9 arg10 harg10) K } := by
  refine ⟨?_, ?_, fun E K => ?run⟩
  case run =>
    simp only [cc0__fused_mlp_kernel_eq_skeleton]; unfold cc0__fused_mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.Kernel.Frame

end
-- ==== Proof.KbFrame.lean ====
/-
  The frame of the fused kernel: what the accumulator and the output block hold after each grid point, the
  per-point obligation of the body, and the run of the whole program.

  After the point (row tile r, intermediate tile k) the accumulator holds what the body's stores left there — at k = 0
  the cleared accumulator plus the tile's partial product, at k > 0 the previous point's accumulator plus the tile's
  partial product —, and at k = 31 the output block holds the accumulator scaled per output channel.  The two packed
  arrays (the gate/up weights and their scales) are each read through two windows, which share the array half and half.
-/
import proofs.«108920_j48241072668862_2_alg».proof.Proof.KbRunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case of the body leaves -/

theorem scover_A (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : cond0 i) (hc1 : ¬cond1 i) (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) (y : S512x3072.Idx) :
    ∃ pc ∈ (kernelRun_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun_A c i arg2 harg2 arg3 harg3 arg4 harg4 arg5 harg5 arg6 harg6 arg7 harg7 arg8 harg8 arg9 harg9 arg10 harg10 hc0 hc1 x0 x1 x2 x3 x4 x5 x6).2.1 S512x3072.size (by sl_kernel_rfl) y
/-- The accumulator after a first tile. -/
def sout_A (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : cond0 i) (hc1 : ¬cond1 i) (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) : Vec F S512x3072 .f32 :=
  VS.read (Elt F) (VS.writes (Elt F) VS.junk (kernelRun_A c i arg2 harg2 arg3 harg3 arg4 harg4 arg5 harg5 arg6 harg6 arg7 harg7 arg8 harg8 arg9 harg9 arg10 harg10 hc0 hc1 x0 x1 x2 x3 x4 x5 x6).2.1)

theorem scover_B (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc1 : ¬cond1 i) (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) (xs : Vec F S512x3072 .f32) (y : S512x3072.Idx) :
    ∃ pc ∈ (kernelRun_B c i arg2 harg2 arg3 harg3 arg4 harg4 arg5 harg5 arg6 harg6 arg7 harg7 arg8 harg8 arg9 harg9 arg10 harg10 hc0 hc1 x0 x1 x2 x3 x4 x5 x6 xs).2.1, y ∈ pc.1.set :=
  View.cover_of_tiledL (kernelRun_B c i arg2 harg2 arg3 harg3 arg4 harg4 arg5 harg5 arg6 harg6 arg7 harg7 arg8 harg8 arg9 harg9 arg10 harg10 hc0 hc1 x0 x1 x2 x3 x4 x5 x6 xs).2.1 S512x3072.size (by sl_kernel_rfl) y
/-- The accumulator after a middle tile, from the accumulator `xs` the point before left. -/
def sout_B (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc1 : ¬cond1 i) (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) (xs : Vec F S512x3072 .f32) : Vec F S512x3072 .f32 :=
  VS.read (Elt F) (VS.writes (Elt F) VS.junk (kernelRun_B c i arg2 harg2 arg3 harg3 arg4 harg4 arg5 harg5 arg6 harg6 arg7 harg7 arg8 harg8 arg9 harg9 arg10 harg10 hc0 hc1 x0 x1 x2 x3 x4 x5 x6 xs).2.1)

theorem scover_C (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc1 : cond1 i) (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) (xs : Vec F S512x3072 .f32) (y : S512x3072.Idx) :
    ∃ pc ∈ (kernelRun_C c i arg2 harg2 arg3 harg3 arg4 harg4 arg5 harg5 arg6 harg6 arg7 harg7 arg8 harg8 arg9 harg9 arg10 harg10 hc0 hc1 x0 x1 x2 x3 x4 x5 x6 xs).2.1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 x4 x5 x6 xs).2.1 S512x3072.size (by sl_kernel_rfl) y
/-- The accumulator after a last tile. -/
def sout_C (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc1 : cond1 i) (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) (xs : Vec F S512x3072 .f32) : Vec F S512x3072 .f32 :=
  VS.read (Elt F) (VS.writes (Elt F) VS.junk (kernelRun_C c i arg2 harg2 arg3 harg3 arg4 harg4 arg5 harg5 arg6 harg6 arg7 harg7 arg8 harg8 arg9 harg9 arg10 harg10 hc0 hc1 x0 x1 x2 x3 x4 x5 x6 xs).2.1)
theorem cover_C (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc1 : cond1 i) (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) (xs : Vec F S512x3072 .f32) (y : S512x3072.Idx) :
    ∃ pc ∈ (kernelRun_C c i arg2 harg2 arg3 harg3 arg4 harg4 arg5 harg5 arg6 harg6 arg7 harg7 arg8 harg8 arg9 harg9 arg10 harg10 hc0 hc1 x0 x1 x2 x3 x4 x5 x6 xs).1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 x4 x5 x6 xs).1 S512x3072.size (by sl_kernel_rfl) y
/-- The output block after a last tile. -/
def out_C (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc1 : cond1 i) (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) (xs : Vec F S512x3072 .f32) : Vec F S512x3072 .f32 :=
  VO.read (Elt F) (VO.writes (Elt F) VO.junk (kernelRun_C c i arg2 harg2 arg3 harg3 arg4 harg4 arg5 harg5 arg6 harg6 arg7 harg7 arg8 harg8 arg9 harg9 arg10 harg10 hc0 hc1 x0 x1 x2 x3 x4 x5 x6 xs).1)

/-! ## The accumulation, point by point -/

/-- After point `n`: (the output block's staging contents, the accumulator).  The first component matters only at the
    last tile of a row tile, where the block is written back; elsewhere it repeats the accumulator. -/
def outsAt (c : Dev nD) : (n : ℕ) → n < cfg0.N → Vec F S512x3072 .f32 × Vec F S512x3072 .f32
  | 0, hn => (sout_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) scM (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) scM (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 32 = 0 then
      if h1 : (n + 1) % 32 = 31 then False.elim (by omega)
      else (sout_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      if h1 : (n + 1) % 32 = 31 then
        (out_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)).2, sout_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)).2)
      else
        (sout_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)).2, sout_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)).2)

theorem outsAt_A (c : Dev nD) (t : Fin cfg0.N) (h0 : t.val % 32 = 0) (h1 : ¬t.val % 32 = 31) :
    outsAt m c t.val t.isLt = (sout_A c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t), sout_A c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_neg h1).trans rfl)

theorem outsAt_B (c : Dev nD) (t : Fin cfg0.N) (h0 : ¬t.val % 32 = 0) (h1 : ¬t.val % 32 = 31) :
    outsAt m c t.val t.isLt = (sout_B c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2, sout_B c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 32 = 0) (h1 : t.val % 32 = 31) :
    outsAt m c t.val t.isLt = (out_C c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2, sout_C c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant between points: before the first point the accumulator holds anything; afterwards what the point
    before left. -/
def PhiS (c : Dev nD) : (n : ℕ) → n ≤ cfg0.N → sProp 𝕄
  | 0, _ => iprop(∃ d, owns (c : Thread nD τ) scM fullShare d)
  | n + 1, hn => owns (c : Thread nD τ) scM fullShare ((outsAt m c n hn).2)

theorem PhiS_zero (c : Dev nD) (n : ℕ) (h : n ≤ cfg0.N) (hz : n = 0) : PhiS m c n h = iprop(∃ d, owns (c : Thread nD τ) scM fullShare d) := by
  subst hz; rfl
theorem PhiS_succ (c : Dev nD) (n : ℕ) (hn : n < cfg0.N) :
    PhiS m c (n + 1) hn = owns (c : Thread nD τ) scM fullShare ((outsAt m c n hn).2) := rfl
theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-! ## The proof data -/

/-- The arrays as the kernel finds them; each input window's buffer at its block; the output window's at `outsAt`; the
    packed weights and the packed scales each shared half and half between their two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (outsAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- At every point the body runs from what the pipeline hands it to what the proof data say it leaves: the case is read
    off the point's position in its row tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  have hN : t.val < 512 := lt_of_lt_of_eq t.isLt (show cfg0.N = 512 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  by_cases h0 : t.val % 32 = 0
  · by_cases h1 : t.val % 32 = 31
    · exfalso; omega
    · rw [Dat.leavesExact_idle (dats m 0 c) 7 t (idle7 t (fun h => h1 ((hcond1 t).mp h))) (noFlush7 t (fun h => h1 ((hcond1 t).mp h)))]
      rw [outsAt_A m c t h0 h1]
      unfold sout_A; (try dsimp only)
      by_cases hz : t.val = 0
      · rw [PhiS_castSucc m c t, PhiS_zero m c _ _ hz]
        iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_A c (grid0.coords t) _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) (iblk m c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%es, HS⟩⟩
        isplitl [HS]
        · unfold owns; iexists _; isplitr
          swap; · iexact HS
          ipureintro; exact View.read_writes_of_cover _ _ _ _ _ (scover_A c _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS_castSucc m c t, PhiS_pos m c _ _ hz]
        iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_A c (grid0.coords t) _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) (iblk m c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexists _; iexact HS
        iintro ⟨H0, H1, H2, H3, H4, H5, H6, H7, ⟨%es, HS⟩⟩
        isplitl [HS]
        · unfold owns; iexists _; isplitr
          swap; · iexact HS
          ipureintro; exact View.read_writes_of_cover _ _ _ _ _ (scover_A c _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · have hz : t.val ≠ 0 := fun e => h0 (by rw [e])
    by_cases h1 : t.val % 32 = 31
    · rw [show (dats m 0 c).leavesExact 7 t = owns (c : Thread nD τ) (ms7 t) fullShare ((dats m 0 c).after 7 t) from by
        unfold Dat.leavesExact; rw [live7 t ((hcond1 t).mpr h1)], after7]
      rw [outsAt_C m c t h0 h1]
      unfold out_C sout_C; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun_C c (grid0.coords t) _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (iblk m c 5 t) (iblk m c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS]
      · unfold owns; iexists _; isplitr
        swap; · iexact HS
        ipureintro; exact View.read_writes_of_cover _ _ _ _ _ (scover_C c _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover_C c _ _ _ _ _ _ _ _ _ _ _ _ _ _ _ _ _ _ _ _ _ _ _ _ _ _ _ _ _)
    · rw [Dat.leavesExact_idle (dats m 0 c) 7 t (idle7 t (fun h => h1 ((hcond1 t).mp h))) (noFlush7 t (fun h => h1 ((hcond1 t).mp h)))]
      rw [outsAt_B m c t h0 h1]
      unfold sout_B; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun_B c (grid0.coords t) _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (iblk m c 5 t) (iblk m c 6 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS]
      · unfold owns; iexists _; isplitr
        swap; · iexact HS
        ipureintro; exact View.read_writes_of_cover _ _ _ _ _ (scover_B c _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Frame

end
-- ==== Proof.KbLaunch.lean ====
/-
  The run of the whole program around the fused kernel.

  The kernel is handed two arrays twice: the packed gate/up weights (their gate half through one window, their up half
  through another) and the packed scales likewise.  Each of the two is therefore held half and half by its two windows
  while the kernel runs.  After the kernel one host operation reshapes its result; every argument array ends as it
  began, and the program's result is the reshape of what the write-backs left in the kernel's result array.
-/
import proofs.«108920_j48241072668862_2_alg».proof.Proof.KbFrame
import Idealize.ShloMosaic.Lib.Pipeline.Launch

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs unscopedRest unscopedRestP)

/-- Two arrays held whole are held half and half. -/
theorem split_chain {P1 P4 P5 P6 : sProp 𝕄} {ℓ2 ℓ3 : Loc nD τ sig} (f2 : Buf (Elt F) ℓ2) (f3 : Buf (Elt F) ℓ3) :
    iprop(P1 ∗ (ℓ2 ↦{fullShare} f2) ∗ (ℓ3 ↦{fullShare} f3) ∗ P4 ∗ P5 ∗ P6)
      ⊢ iprop(P1 ∗ (ℓ2 ↦{fullShare.left} f2) ∗ (ℓ2 ↦{fullShare.right} f2) ∗ (ℓ3 ↦{fullShare.left} f3) ∗ (ℓ3 ↦{fullShare.right} f3) ∗ P4 ∗ P5 ∗ P6) := by
  iintro ⟨H1, HA, HB, H4, H5, H6⟩
  ihave HA := (pointsTo_share (PosShare.mem_left_op_right fullShare)).1 $$ HA
  icases HA with ⟨H2a, H2b⟩
  ihave HB := (pointsTo_share (PosShare.mem_left_op_right fullShare)).1 $$ HB
  icases HB with ⟨H3a, H3b⟩
  isplitl [H1]; · iexact H1
  isplitl [H2a]; · iexact H2a
  isplitl [H2b]; · iexact H2b
  isplitl [H3a]; · iexact H3a
  isplitl [H3b]; · iexact H3b
  isplitl [H4]; · iexact H4
  isplitl [H5]; · iexact H5
  iexact H6

/-- The share each window holds of its array. -/
abbrev shr : Fin cfg0.W → PosShare TreeShare := fun w => match w with
  | ⟨0, _⟩ => fullShare
  | ⟨1, _⟩ => fullShare.left
  | ⟨2, _⟩ => fullShare.right
  | ⟨3, _⟩ => fullShare.left
  | ⟨4, _⟩ => fullShare.right
  | ⟨5, _⟩ => fullShare
  | ⟨6, _⟩ => fullShare
  | ⟨7, _⟩ => fullShare

/-- The proof data hold each window's array at that share. -/
theorem share_eq (c : Dev nD) : ∀ w : Fin cfg0.W, (dats m 0 c).share w = shr w := fun
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- The eight windows' holdings, window by window. -/
theorem arrays_eq0 (c : Dev nD) (A : (w : Fin cfg0.W) → Buf (Elt F) ((cfg0.win w).arr.view.loc (c : Thread nD τ))) :
    ((dats m 0 c).arrays A : sProp 𝕄)
      = bigSep Finset.univ fun w => (((c : Thread nD τ).loc (Pipeline.arrRef spec0 w)) ↦{shr w} A w : sProp 𝕄) := by
  unfold Dat.arrays
  exact bigSep_congr fun w _ => by rw [(arr_whole0 w).set_eq_univ, share_eq]

/-- The six distinct arrays behind the eight windows, each whole. -/
theorem arrBufs_eq (c : Dev nD) (W : (b : Ref sig .tc) → Buf (Elt F) ((c : Thread nD τ).loc b)) :
    (arrBufs (Ix := Unit) (Name := ℕ) (U := UR sig nD τ) (Lvl := ℕ) spec0 c W : sProp 𝕄)
      = iprop((((c : Thread nD τ).loc main_v1) ↦{fullShare} W main_v1) ∗ (((c : Thread nD τ).loc main_v2) ↦{fullShare} W main_v2) ∗ (((c : Thread nD τ).loc main_arg2) ↦{fullShare} W main_arg2)
          ∗ (((c : Thread nD τ).loc main_v3) ↦{fullShare} W main_v3) ∗ (((c : Thread nD τ).loc main_arg4) ↦{fullShare} W main_arg4) ∗ (((c : Thread nD τ).loc main_v4) ↦{fullShare} W main_v4)) := by
  unfold arrBufs
  exact bigSep_eq_bigSepL_of_eq [main_v1, main_v2, main_arg2, main_v3, main_arg4, main_v4] (by decide) (by decide) _

/-- At the kernel's entry the arrays are dealt to the windows: the packed weights and the packed scales half and half. -/
theorem hsplit (c : Dev nD) :
    (arrBufs (Ix := Unit) (Name := ℕ) (U := UR sig nD τ) (Lvl := ℕ) spec0 c (V m c) : sProp 𝕄) ⊢ (dats m 0 c).arrays ((dats m 0 c).arrAt · 0) := by
  rw [arrBufs_eq, arrays_eq0, bigSep_W0]
  exact split_chain _ _

/-- The core's buffers when the kernel has returned: the result array at what the write-backs left. -/
abbrev Wt (c : Dev nD) : Valuation τ sig (Elt F) :=
  Function.update (V0 m c) (Proc.devRef .tc main_v4) ((dats m 0 c).arrAt 7 cfg0.N)

/-- The program's result: the reshape of the kernel's result array. -/
def out5 (c : Dev nD) : Buf (Elt F) ((c : Thread nD τ).loc main_v5) :=
  StableHlo.after hostOps1 (Wt m c) (Proc.devRef .tc main_v5)

/-- The two buffers the last host operation touches. -/
abbrev tailS : Finset (DevRef τ sig) := {Proc.devRef .tc main_v4, Proc.devRef .tc main_v5}

/-- Holding those two buffers. -/
theorem held_tailS (c : Dev nD) (W : Valuation τ sig (Elt F)) :
    (StableHlo.held (c : Thread nD τ) tailS W : sProp 𝕄)
      = iprop((((c : Thread nD τ).loc main_v4) ↦{fullShare} W (Proc.devRef .tc main_v4)) ∗ (((c : Thread nD τ).loc main_v5) ↦{fullShare} W (Proc.devRef .tc main_v5))) := by
  unfold StableHlo.held tailS
  rw [BI.bigSep_insert (by decide), BI.bigSep_singleton]
  rfl

/-- The reshape after the kernel writes its own result only. -/
theorem tail_keeps_v4 : ∀ op ∈ ([hostOps1].flatten : List (HloOp τ sig (Elt F))), Proc.devRef .tc main_v4 ∉ op.writes := by
  intro op hop
  simp only [hostOps1, List.flatten_cons, List.flatten_nil, List.append_nil, List.mem_cons, List.mem_nil_iff, or_false] at hop
  rcases hop with rfl
  simp only [StableHlo.reshape_writes, Finset.mem_singleton]
  exact StableHlo.devRef_ne_of_ne (by decide)

/-- It touches the kernel's result array and its own result. -/
theorem tail_sub : ∀ ops ∈ ([hostOps1] : List (List (HloOp τ sig (Elt F)))), ∀ op ∈ ops, op.bufs ⊆ tailS := by
  intro ops hops op hop
  simp only [List.mem_cons, List.mem_nil_iff, or_false] at hops
  rcases hops with rfl
  simp only [hostOps1, List.mem_cons, List.mem_nil_iff, or_false] at hop
  rcases hop with rfl
  rw [StableHlo.reshape_bufs]

/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem Wt_v4 (c : Dev nD) : Wt m c (Proc.devRef .tc main_v4) = (dats m 0 c).arrAt 7 cfg0.N := Function.update_self ..
theorem Wt_v5 (c : Dev nD) : Wt m c (Proc.devRef .tc main_v5) = V m c main_v5 :=
  Function.update_of_ne (StableHlo.devRef_ne_of_ne (by decide)) ..

/-- Before the reshape: the kernel's result array at what the write-backs left, the target at what it held. -/
theorem held_before (c : Dev nD) :
    (StableHlo.held (c : Thread nD τ) tailS (Wt m c) : sProp 𝕄)
      = iprop((((c : Thread nD τ).loc main_v4) ↦{fullShare} (dats m 0 c).arrAt 7 cfg0.N) ∗ (((c : Thread nD τ).loc main_v5) ↦{fullShare} V m c main_v5)) := by
  rw [held_tailS, Wt_v4, Wt_v5]

/-- After it: the result array unchanged, the target at the reshape. -/
theorem held_after (c : Dev nD) :
    (StableHlo.held (c : Thread nD τ) tailS (StableHlo.after [hostOps1].flatten (Wt m c)) : sProp 𝕄)
      = iprop((((c : Thread nD τ).loc main_v4) ↦{fullShare} (dats m 0 c).arrAt 7 cfg0.N) ∗ (((c : Thread nD τ).loc main_v5) ↦{fullShare} out5 m c)) := by
  rw [held_tailS, StableHlo.after_of_forall_not_mem (b := Proc.devRef .tc main_v4) _ _ tail_keeps_v4, Wt_v4]
  rfl

/-- What bypasses the kernel: the three arguments it is not handed directly, the reshaped x, and the result buffer. -/
abbrev Zt (c : Dev nD) : sProp 𝕄 :=
  iprop((((c : Thread nD τ).loc main_arg0) ↦{fullShare} V m c main_arg0) ∗ (((c : Thread nD τ).loc main_arg1) ↦{fullShare} V m c main_arg1) ∗ (((c : Thread nD τ).loc main_arg3) ↦{fullShare} V m c main_arg3)
    ∗ (((c : Thread nD τ).loc main_v0) ↦{fullShare} V m c main_v0) ∗ (((c : Thread nD τ).loc main_v5) ↦{fullShare} out5 m c))

set_option backward.isDefEq.respectTransparency.types false in
/-- The host operation after the kernel runs from the kernel's exit: it reads the result array and writes its reshape. -/
theorem htail (c : Dev nD) (Q' : PUnit → sProp 𝕄) :
    iprop((iprop((dats m 0 c).arrays ((dats m 0 c).arrAt · cfg0.N) ∗ Zt m c) -∗ Q' ⟨⟩)
        ∗ boundary (c : Thread nD τ) ∗ (dats m 0 c).arrays ((dats m 0 c).arrAt · cfg0.N)
        ∗ unscopedRest (Ix := Unit) (Name := ℕ) (U := UR sig nD τ) (Lvl := ℕ) spec0 c (V m c))
      ⊢ wp frame (wpE (defs (F := F)) (Variants.lift Variants.none) (c : Thread nD τ) none) Set.univ (Pipeline.chain [StableHlo.seq hostOps1]) Q' := by
  rw [arrays_eq0, bigSep_W0, unscopedRest0_eq]
  iintro ⟨Hk, Hb, ⟨A0, A1, A2, A3, A4, A5, A6, A7⟩, ⟨Z0, Z1, Z3, Zv0, Zv5⟩⟩
  ihave Hh := (Entails.of_eq (held_before m c).symm) $$ [A7 Zv5]
  · isplitl [A7]; · iexact A7
    iexact Zv5
  ihave Hw := (Pipeline.wp_seqs_then (fun q => (cfgs q).toPCfg (Val := Elt F)) defs₀ Variants.none c tailS [] [hostOps1] tail_sub tail_fresh (Wt m c)) $$ [Hb Hh]
  · isplitl [Hb]; · iexact Hb
    iexact Hh
  iapply Hw
  iintro ⟨Hb, Hh⟩
  rw [Pipeline.chain_nil, wp_pure]
  ihave Hh := (Entails.of_eq (held_after m c)) $$ Hh
  icases Hh with ⟨A7, Zv5⟩
  imodintro
  iapply Hk
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [Z0]; · iexact Z0
  isplitl [Z1]; · iexact Z1
  isplitl [Z3]; · iexact Z3
  isplitl [Zv0]; · iexact Zv0
  iexact Zv5

/-! ## The arguments reach the kernel as launched -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- After any point but the first the accumulator's named contents can be forgotten. -/
theorem Phi_out (c : Dev nD) (t : Fin (cfg0.N + 1)) (ht : t.val ≠ 0) : (dats m 0 c).Φ t ⊢ iprop(∃ d, owns (c : Thread nD τ) scM fullShare d) := by
  rw [show (dats m 0 c).Φ t = PhiS m c t.val (Nat.le_of_lt_succ t.isLt) from rfl, PhiS_pos m c _ _ ht]
  iintro H; iexists _; iexact H

/-- At the kernel's exit the accumulator is handed back at some contents. -/
theorem hout (c : Dev nD) : (dats m 0 c).Φ (Fin.last cfg0.N)
    ⊢ iprop((emp : sProp 𝕄) ∗ Pipeline.scopedRest (Ix := Unit) (Name := ℕ) (U := UR sig nD τ) (Lvl := ℕ) (Val := Elt F) spec0 c) := by
  refine (Phi_out m c (Fin.last cfg0.N) (by rw [Fin.val_last]; have : cfg0.N = 512 := N_0; omega)).trans ?_
  rw [scopedRest_eq]
  iintro H; isplitr; · iempintro
  iexact H

/-- What the run ends with: the program's result at the reshape of the kernel's result array, every argument as launched. -/
def Qf : PUnit × MemSt nD τ sig (Elt F) → Prop := fun r => ∀ c : Dev nD,
  r.2.mem ((c : Thread nD τ).loc main_v5) = out5 m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)

set_option backward.isDefEq.respectTransparency.types false in
/-- From any memory with zero counters every weakly fair execution of the program terminates, faulting nowhere, with
    the result at `out5` and the arguments unchanged. -/
theorem run_main : θ_run defs (onTc (τ := τ) (main (F := F))) ⟨m, fun _ => 0, ρ⟩ (Qf m) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main
    (fun _ => Pipeline.chain [StableHlo.seq hostOps1])
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := hsplit m)
    (hpf := fun _ k => k.elim0)
    (X := fun _ => iprop(emp)) (Y := fun _ => iprop(emp))
    (Z := fun c => unscopedRest (Ix := Unit) (Name := ℕ) (U := UR sig nD τ) (Lvl := ℕ) spec0 c (V m c)) (Z' := Zt m)
    (hX := fun c => by
      rw [Pipeline.unscopedRestP_none]
      iintro H; isplitr; · iempintro
      iexact H)
    (hin := fun c => by
      rw [show (dats m 0 c).Φ 0 = PhiS m c 0 (Nat.zero_le _) from rfl, PhiS_zero m c 0 _ rfl, scopedRest_eq]
      iintro ⟨-, -, H⟩; iexact H)
    (hout := hout m)
    (htail := htail m)
    (QY := fun c s => s.mem ((c : Thread nD τ).loc main_v5) = out5 m c ∧ s.mem ((c : Thread nD τ).loc main_arg0) = V m c main_arg0
      ∧ s.mem ((c : Thread nD τ).loc main_arg1) = V m c main_arg1 ∧ s.mem ((c : Thread nD τ).loc main_arg3) = V m c main_arg3)
    (hY := fun c s' => by
      iintro ⟨-, ⟨Z0, Z1, Z3, Zv0, Zv5⟩, HSI⟩
      icombine HSI Z0 gives %h0
      icombine HSI Z1 gives %h1
      icombine HSI Z3 gives %h3
      icombine HSI Zv5 gives %h5
      imodintro
      isplitr
      · ipureintro
        exact ⟨Buf.eq_of_forall_mem_univ h5, Buf.eq_of_forall_mem_univ h0, Buf.eq_of_forall_mem_univ h1, Buf.eq_of_forall_mem_univ h3⟩
      iexact HSI)
    (hQ := fun s h c => ⟨(h c).2.2.1, (h c).2.2.2.1.trans (V_main_arg0 m c), (h c).2.2.2.2.1.trans (V_main_arg1 m c),
      ((h c).1 3).trans (((dats m 0 c).arrAt_in 3 rfl _).trans ((A_eq m c 3).trans (V_main_arg2 m c))),
      (h c).2.2.2.2.2.trans (V_main_arg3 m c),
      ((h c).1 6).trans (((dats m 0 c).arrAt_in 6 rfl _).trans ((A_eq m c 6).trans (V_main_arg4 m c)))⟩)

end Cert.Kernel.Frame

end
-- ==== Proof.KiSched.lean ====
/-
  The schedule of the fused kernel's one grid, 16 row tiles by 32 tiles of the intermediate axis (point t is row tile
  t / 32 at intermediate tile t % 32), and the arrays as the kernel finds them.

  The accumulator is cleared exactly at the points with t % 32 = 0 and the output block is stored exactly at the points
  with t % 32 = 31; at every other point the output window is idle and is not written back.  Each of the seven input
  windows holds, at every point, its block of the array the host operations before the call produced.
-/
import proofs.«108920_j48241072668862_2_alg».proof.Proof.Gen.KernelIdeal.Launch
import proofs.«108920_j48241072668862_2_alg».proof.Proof.Gen.KernelIdeal.Skeleton
import proofs.«108920_j48241072668862_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the call -/

/-- The core's buffers when the kernel is entered: the four host operations before it (a reshape of x, the change of
    format of x and the two integer-to-float conversions of the weights) have run. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations, the kernel call, and one more host operation (the reshape of the result). -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-! ## The windows' blocks -/

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block of the array at every grid point, whether the point fetches it or
    the block index has not moved since the last fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block of the array at every grid point, whether the point fetches it or
    the block index has not moved since the last fetch. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block of the array at every grid point, whether the point fetches it or
    the block index has not moved since the last fetch. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block of the array at every grid point, whether the point fetches it or
    the block index has not moved since the last fetch. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block of the array at every grid point, whether the point fetches it or
    the block index has not moved since the last fetch. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block of the array at every grid point, whether the point fetches it or
    the block index has not moved since the last fetch. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block of the array at every grid point, whether the point fetches it or
    the block index has not moved since the last fetch. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, in closed form -/

/-- "This is the first intermediate tile of the row tile": the accumulator is cleared. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 32 = 0 :=
  (by decide +kernel : ∀ t : Fin grid0.N, cond0 (grid0.coords t) ↔ t.val % 32 = 0)

/-- "This is the last intermediate tile of the row tile": the scaled accumulator is stored into the output block. -/
abbrev cond1 (i : grid0.Coords) : Prop := k0_cond2 i = 1#1
theorem hcond1 : ∀ t : Fin cfg0.N, cond1 (grid0.coords t) ↔ t.val % 32 = 31 :=
  (by decide +kernel : ∀ t : Fin grid0.N, cond1 (grid0.coords t) ↔ t.val % 32 = 31)

/-- Where the output block is not stored the output window is idle and is not written back; where it is stored it is live. -/
theorem idle7 : ∀ t : Fin cfg0.N, ¬cond1 (grid0.coords t) → cfg0.idle 7 (grid0.coords t) = true := by decide +kernel
theorem noFlush7 : ∀ t : Fin cfg0.N, ¬cond1 (grid0.coords t) → (cfg0.win 7).flush t = false := by decide +kernel
theorem live7 : ∀ t : Fin cfg0.N, cond1 (grid0.coords t) → cfg0.idle 7 (grid0.coords t) = false := by decide +kernel

/-! ## The staging buffers the body is called with -/

abbrev ms0 (t : Fin cfg0.N) : Memref sig .tc .vmem S512x3072 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x3072 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x3072 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S3072x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S3072 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x3072 .f32 := win0_7.stage (cfg0.slots t 7)
abbrev hs7 (t : Fin cfg0.N) : (ms7 t).IsWhole := hstage0_7 ((cfg0.slots t 7).cast nbuf0_7)
/-- The accumulator: a scratch buffer of the kernel's own, carried from point to point. -/
abbrev scM : Memref sig .tc .vmem S512x3072 .f32 := Memref.whole cc0_scratch0
abbrev VS : View sig .tc .vmem S512x3072 .f32 := scM.view
/-- A staging buffer of the output window, through which its contents are stated. -/
abbrev VO : View sig .tc .vmem S512x3072 .f32 := (Memref.whole cc0_stg7_0 : Memref sig .tc .vmem S512x3072 .f32).view

/-- The kernel's scoped buffers that are no staging buffer: the accumulator alone. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Frame

end
-- ==== Proof.KiRunA.lean ====
/-
  The kernel's body run at the FIRST intermediate tile of a row tile: the accumulator is cleared, then this tile's partial product is added; nothing is stored into the output block.

  The run is symbolic: every input staging buffer holds given contents and is handed back unchanged; what the body's
  stores leave in the accumulator (and, at the last tile, in the output block) is recorded as the list of written
  pieces, which the run itself finds.
-/
import proofs.«108920_j48241072668862_2_alg».proof.Proof.KiSched

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the FIRST intermediate tile of a row tile: the accumulator is cleared, then this tile's partial product is added; nothing is stored into the output block. -/
noncomputable def kernelRun_A (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : cond0 i) (hc1 : ¬cond1 i)
    (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) :
    Σ' (L7 : List (View.Piece (Elt F) S512x3072 .f32)), { LS : List (View.Piece (Elt F) S512x3072 .f32) //
      ∀ (xi7 : Vec F S512x3072 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__fused_mlp_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__fused_mlp_kernel_eq_skeleton]; unfold cc0__fused_mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.KernelIdeal.Frame

end
-- ==== Proof.KiRunB.lean ====
/-
  The kernel's body run at a MIDDLE intermediate tile: this tile's partial product is added to the accumulator the point before left; nothing is stored into the output block.

  The run is symbolic: every input staging buffer holds given contents and is handed back unchanged; what the body's
  stores leave in the accumulator (and, at the last tile, in the output block) is recorded as the list of written
  pieces, which the run itself finds.
-/
import proofs.«108920_j48241072668862_2_alg».proof.Proof.KiRunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a MIDDLE intermediate tile: this tile's partial product is added to the accumulator the point before left; nothing is stored into the output block. -/
noncomputable def kernelRun_B (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc1 : ¬cond1 i)
    (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) (xs : Vec F S512x3072 .f32) :
    Σ' (L7 : List (View.Piece (Elt F) S512x3072 .f32)), { LS : List (View.Piece (Elt F) S512x3072 .f32) //
      ∀ (xi7 : Vec F S512x3072 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__fused_mlp_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__fused_mlp_kernel_eq_skeleton]; unfold cc0__fused_mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.KernelIdeal.Frame

end
-- ==== Proof.KiRunC.lean ====
/-
  The kernel's body run at the LAST intermediate tile of a row tile: this tile's partial product is added to the accumulator, and the accumulator, scaled per output channel, is stored into the output block.

  The run is symbolic: every input staging buffer holds given contents and is handed back unchanged; what the body's
  stores leave in the accumulator (and, at the last tile, in the output block) is recorded as the list of written
  pieces, which the run itself finds.
-/
import proofs.«108920_j48241072668862_2_alg».proof.Proof.KiRunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the LAST intermediate tile of a row tile: this tile's partial product is added to the accumulator, and the accumulator, scaled per output channel, is stored into the output block. -/
noncomputable def kernelRun_C (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc1 : cond1 i)
    (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) (xs : Vec F S512x3072 .f32) :
    Σ' (L7 : List (View.Piece (Elt F) S512x3072 .f32)), { LS : List (View.Piece (Elt F) S512x3072 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc0__fused_mlp_kernel i arg2 harg2 arg3 harg3 arg4 harg4 arg5 harg5 arg6 harg6 arg7 harg7 arg8 harg8 arg9 harg9 arg10 harg10) K } := by
  refine ⟨?_, ?_, fun E K => ?run⟩
  case run =>
    simp only [cc0__fused_mlp_kernel_eq_skeleton]; unfold cc0__fused_mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.KernelIdeal.Frame

end
-- ==== Proof.KiFrame.lean ====
/-
  The frame of the fused kernel: what the accumulator and the output block hold after each grid point, the
  per-point obligation of the body, and the run of the whole program.

  After the point (row tile r, intermediate tile k) the accumulator holds what the body's stores left there — at k = 0
  the cleared accumulator plus the tile's partial product, at k > 0 the previous point's accumulator plus the tile's
  partial product —, and at k = 31 the output block holds the accumulator scaled per output channel.  The two packed
  arrays (the gate/up weights and their scales) are each read through two windows, which share the array half and half.
-/
import proofs.«108920_j48241072668862_2_alg».proof.Proof.KiRunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case of the body leaves -/

theorem scover_A (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : cond0 i) (hc1 : ¬cond1 i) (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) (y : S512x3072.Idx) :
    ∃ pc ∈ (kernelRun_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun_A c i arg2 harg2 arg3 harg3 arg4 harg4 arg5 harg5 arg6 harg6 arg7 harg7 arg8 harg8 arg9 harg9 arg10 harg10 hc0 hc1 x0 x1 x2 x3 x4 x5 x6).2.1 S512x3072.size (by sl_kernel_rfl) y
/-- The accumulator after a first tile. -/
def sout_A (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : cond0 i) (hc1 : ¬cond1 i) (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) : Vec F S512x3072 .f32 :=
  VS.read (Elt F) (VS.writes (Elt F) VS.junk (kernelRun_A c i arg2 harg2 arg3 harg3 arg4 harg4 arg5 harg5 arg6 harg6 arg7 harg7 arg8 harg8 arg9 harg9 arg10 harg10 hc0 hc1 x0 x1 x2 x3 x4 x5 x6).2.1)

theorem scover_B (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc1 : ¬cond1 i) (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) (xs : Vec F S512x3072 .f32) (y : S512x3072.Idx) :
    ∃ pc ∈ (kernelRun_B c i arg2 harg2 arg3 harg3 arg4 harg4 arg5 harg5 arg6 harg6 arg7 harg7 arg8 harg8 arg9 harg9 arg10 harg10 hc0 hc1 x0 x1 x2 x3 x4 x5 x6 xs).2.1, y ∈ pc.1.set :=
  View.cover_of_tiledL (kernelRun_B c i arg2 harg2 arg3 harg3 arg4 harg4 arg5 harg5 arg6 harg6 arg7 harg7 arg8 harg8 arg9 harg9 arg10 harg10 hc0 hc1 x0 x1 x2 x3 x4 x5 x6 xs).2.1 S512x3072.size (by sl_kernel_rfl) y
/-- The accumulator after a middle tile, from the accumulator `xs` the point before left. -/
def sout_B (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc1 : ¬cond1 i) (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) (xs : Vec F S512x3072 .f32) : Vec F S512x3072 .f32 :=
  VS.read (Elt F) (VS.writes (Elt F) VS.junk (kernelRun_B c i arg2 harg2 arg3 harg3 arg4 harg4 arg5 harg5 arg6 harg6 arg7 harg7 arg8 harg8 arg9 harg9 arg10 harg10 hc0 hc1 x0 x1 x2 x3 x4 x5 x6 xs).2.1)

theorem scover_C (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc1 : cond1 i) (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) (xs : Vec F S512x3072 .f32) (y : S512x3072.Idx) :
    ∃ pc ∈ (kernelRun_C c i arg2 harg2 arg3 harg3 arg4 harg4 arg5 harg5 arg6 harg6 arg7 harg7 arg8 harg8 arg9 harg9 arg10 harg10 hc0 hc1 x0 x1 x2 x3 x4 x5 x6 xs).2.1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 x4 x5 x6 xs).2.1 S512x3072.size (by sl_kernel_rfl) y
/-- The accumulator after a last tile. -/
def sout_C (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc1 : cond1 i) (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) (xs : Vec F S512x3072 .f32) : Vec F S512x3072 .f32 :=
  VS.read (Elt F) (VS.writes (Elt F) VS.junk (kernelRun_C c i arg2 harg2 arg3 harg3 arg4 harg4 arg5 harg5 arg6 harg6 arg7 harg7 arg8 harg8 arg9 harg9 arg10 harg10 hc0 hc1 x0 x1 x2 x3 x4 x5 x6 xs).2.1)
theorem cover_C (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc1 : cond1 i) (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) (xs : Vec F S512x3072 .f32) (y : S512x3072.Idx) :
    ∃ pc ∈ (kernelRun_C c i arg2 harg2 arg3 harg3 arg4 harg4 arg5 harg5 arg6 harg6 arg7 harg7 arg8 harg8 arg9 harg9 arg10 harg10 hc0 hc1 x0 x1 x2 x3 x4 x5 x6 xs).1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 x4 x5 x6 xs).1 S512x3072.size (by sl_kernel_rfl) y
/-- The output block after a last tile. -/
def out_C (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc1 : cond1 i) (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) (xs : Vec F S512x3072 .f32) : Vec F S512x3072 .f32 :=
  VO.read (Elt F) (VO.writes (Elt F) VO.junk (kernelRun_C c i arg2 harg2 arg3 harg3 arg4 harg4 arg5 harg5 arg6 harg6 arg7 harg7 arg8 harg8 arg9 harg9 arg10 harg10 hc0 hc1 x0 x1 x2 x3 x4 x5 x6 xs).1)

/-! ## The accumulation, point by point -/

/-- After point `n`: (the output block's staging contents, the accumulator).  The first component matters only at the
    last tile of a row tile, where the block is written back; elsewhere it repeats the accumulator. -/
def outsAt (c : Dev nD) : (n : ℕ) → n < cfg0.N → Vec F S512x3072 .f32 × Vec F S512x3072 .f32
  | 0, hn => (sout_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) scM (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) scM (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 32 = 0 then
      if h1 : (n + 1) % 32 = 31 then False.elim (by omega)
      else (sout_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      if h1 : (n + 1) % 32 = 31 then
        (out_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)).2, sout_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)).2)
      else
        (sout_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)).2, sout_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)).2)

theorem outsAt_A (c : Dev nD) (t : Fin cfg0.N) (h0 : t.val % 32 = 0) (h1 : ¬t.val % 32 = 31) :
    outsAt m c t.val t.isLt = (sout_A c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t), sout_A c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_neg h1).trans rfl)

theorem outsAt_B (c : Dev nD) (t : Fin cfg0.N) (h0 : ¬t.val % 32 = 0) (h1 : ¬t.val % 32 = 31) :
    outsAt m c t.val t.isLt = (sout_B c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2, sout_B c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 32 = 0) (h1 : t.val % 32 = 31) :
    outsAt m c t.val t.isLt = (out_C c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2, sout_C c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant between points: before the first point the accumulator holds anything; afterwards what the point
    before left. -/
def PhiS (c : Dev nD) : (n : ℕ) → n ≤ cfg0.N → sProp 𝕄
  | 0, _ => iprop(∃ d, owns (c : Thread nD τ) scM fullShare d)
  | n + 1, hn => owns (c : Thread nD τ) scM fullShare ((outsAt m c n hn).2)

theorem PhiS_zero (c : Dev nD) (n : ℕ) (h : n ≤ cfg0.N) (hz : n = 0) : PhiS m c n h = iprop(∃ d, owns (c : Thread nD τ) scM fullShare d) := by
  subst hz; rfl
theorem PhiS_succ (c : Dev nD) (n : ℕ) (hn : n < cfg0.N) :
    PhiS m c (n + 1) hn = owns (c : Thread nD τ) scM fullShare ((outsAt m c n hn).2) := rfl
theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-! ## The proof data -/

/-- The arrays as the kernel finds them; each input window's buffer at its block; the output window's at `outsAt`; the
    packed weights and the packed scales each shared half and half between their two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (outsAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- At every point the body runs from what the pipeline hands it to what the proof data say it leaves: the case is read
    off the point's position in its row tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  have hN : t.val < 512 := lt_of_lt_of_eq t.isLt (show cfg0.N = 512 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  by_cases h0 : t.val % 32 = 0
  · by_cases h1 : t.val % 32 = 31
    · exfalso; omega
    · rw [Dat.leavesExact_idle (dats m 0 c) 7 t (idle7 t (fun h => h1 ((hcond1 t).mp h))) (noFlush7 t (fun h => h1 ((hcond1 t).mp h)))]
      rw [outsAt_A m c t h0 h1]
      unfold sout_A; (try dsimp only)
      by_cases hz : t.val = 0
      · rw [PhiS_castSucc m c t, PhiS_zero m c _ _ hz]
        iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_A c (grid0.coords t) _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) (iblk m c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%es, HS⟩⟩
        isplitl [HS]
        · unfold owns; iexists _; isplitr
          swap; · iexact HS
          ipureintro; exact View.read_writes_of_cover _ _ _ _ _ (scover_A c _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS_castSucc m c t, PhiS_pos m c _ _ hz]
        iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_A c (grid0.coords t) _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) (iblk m c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexists _; iexact HS
        iintro ⟨H0, H1, H2, H3, H4, H5, H6, H7, ⟨%es, HS⟩⟩
        isplitl [HS]
        · unfold owns; iexists _; isplitr
          swap; · iexact HS
          ipureintro; exact View.read_writes_of_cover _ _ _ _ _ (scover_A c _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · have hz : t.val ≠ 0 := fun e => h0 (by rw [e])
    by_cases h1 : t.val % 32 = 31
    · rw [show (dats m 0 c).leavesExact 7 t = owns (c : Thread nD τ) (ms7 t) fullShare ((dats m 0 c).after 7 t) from by
        unfold Dat.leavesExact; rw [live7 t ((hcond1 t).mpr h1)], after7]
      rw [outsAt_C m c t h0 h1]
      unfold out_C sout_C; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun_C c (grid0.coords t) _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (iblk m c 5 t) (iblk m c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS]
      · unfold owns; iexists _; isplitr
        swap; · iexact HS
        ipureintro; exact View.read_writes_of_cover _ _ _ _ _ (scover_C c _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover_C c _ _ _ _ _ _ _ _ _ _ _ _ _ _ _ _ _ _ _ _ _ _ _ _ _ _ _ _ _)
    · rw [Dat.leavesExact_idle (dats m 0 c) 7 t (idle7 t (fun h => h1 ((hcond1 t).mp h))) (noFlush7 t (fun h => h1 ((hcond1 t).mp h)))]
      rw [outsAt_B m c t h0 h1]
      unfold sout_B; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun_B c (grid0.coords t) _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (iblk m c 5 t) (iblk m c 6 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS]
      · unfold owns; iexists _; isplitr
        swap; · iexact HS
        ipureintro; exact View.read_writes_of_cover _ _ _ _ _ (scover_B c _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frame

end
-- ==== Proof.KiPieces.lean ====
/-
  What the body's stores leave, read back as values: after a first tile the accumulator holds the tile's partial
  product added to the cleared accumulator; after a later tile, the partial product added to what the point before
  left; and at a last tile the output block holds that accumulator scaled per output channel.  Each is one store
  covering its whole buffer, whose payload reads whole buffers.
-/
import proofs.«108920_j48241072668862_2_alg».proof.Proof.KiFrame
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A block at offset zero. -/
theorem hz : (![0, 0] : Fin 2 → Nat) = fun _ => 0 := funext fun a => by fin_cases a <;> rfl
theorem hz1 : (![0] : Fin 1 → Nat) = fun _ => 0 := funext fun a => by fin_cases a; rfl

/-- A middle tile: the payload of the one store into the accumulator, over the input blocks and the accumulator found. -/
theorem sout_B_eq (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc1 : ¬cond1 i) (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) (xs : Vec F S512x3072 .f32) :
    sout_B c i arg2 harg2 arg3 harg3 arg4 harg4 arg5 harg5 arg6 harg6 arg7 harg7 arg8 harg8 arg9 harg9 arg10 harg10 hc0 hc1 x0 x1 x2 x3 x4 x5 x6 xs = k0_pay2 x0 x1 x2 x3 x4 x5 xs := by
  unfold sout_B
  rw [View.read_writes_eq_canon _ _ _ (scover_B c i arg2 harg2 arg3 harg3 arg4 harg4 arg5 harg5 arg6 harg6 arg7 harg7 arg8 harg8 arg9 harg9 arg10 harg10 hc0 hc1 x0 x1 x2 x3 x4 x5 x6 xs)]
  unfold kernelRun_B
  dsimp only
  rw [View.canon_unit_zero hz]
  simp only [View.readAt_eq_ld, harg2.read_unread, harg3.read_unread, harg4.read_unread, harg5.read_unread, harg6.read_unread, harg7.read_unread, harg8.read_unread, harg10.read_unread,
    View.ld_unit_zero (S := S512x3072) hz, View.ld_unit_zero (S := S256x3072) hz, View.ld_unit_zero (S := S256) hz1, View.ld_unit_zero (S := S3072x256) hz, View.ld_unit_zero (S := S3072) hz1]

/-- A first tile: the same payload over the cleared accumulator, which the body stored and read back. -/
theorem sout_A_eq (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : cond0 i) (hc1 : ¬cond1 i) (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) :
    sout_A c i arg2 harg2 arg3 harg3 arg4 harg4 arg5 harg5 arg6 harg6 arg7 harg7 arg8 harg8 arg9 harg9 arg10 harg10 hc0 hc1 x0 x1 x2 x3 x4 x5 x6 = k0_pay2 x0 x1 x2 x3 x4 x5 (k0_pay1 (F := F)) := by
  unfold sout_A
  rw [View.read_writes_eq_canon _ _ _ (scover_A c i arg2 harg2 arg3 harg3 arg4 harg4 arg5 harg5 arg6 harg6 arg7 harg7 arg8 harg8 arg9 harg9 arg10 harg10 hc0 hc1 x0 x1 x2 x3 x4 x5 x6)]
  unfold kernelRun_A
  dsimp only
  sl_unfold_words
  rw [View.canon_cons_unit_zero (S := S512x3072) hz, View.readCov_unit_zero (S := S512x3072) _ hz]
  simp only [View.readAt_eq_ld, harg2.read_unread, harg3.read_unread, harg4.read_unread, harg5.read_unread, harg6.read_unread, harg7.read_unread, harg8.read_unread, harg10.read_unread,
    View.ld_unit_zero (S := S512x3072) hz, View.ld_unit_zero (S := S256x3072) hz, View.ld_unit_zero (S := S256) hz1, View.ld_unit_zero (S := S3072x256) hz, View.ld_unit_zero (S := S3072) hz1]

/-- A last tile leaves the accumulator as a middle tile does, -/
theorem sout_C_eq (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc1 : cond1 i) (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) (xs : Vec F S512x3072 .f32) :
    sout_C c i arg2 harg2 arg3 harg3 arg4 harg4 arg5 harg5 arg6 harg6 arg7 harg7 arg8 harg8 arg9 harg9 arg10 harg10 hc0 hc1 x0 x1 x2 x3 x4 x5 x6 xs = k0_pay2 x0 x1 x2 x3 x4 x5 xs := by
  unfold sout_C
  rw [View.read_writes_eq_canon _ _ _ (scover_C c i arg2 harg2 arg3 harg3 arg4 harg4 arg5 harg5 arg6 harg6 arg7 harg7 arg8 harg8 arg9 harg9 arg10 harg10 hc0 hc1 x0 x1 x2 x3 x4 x5 x6 xs)]
  unfold kernelRun_C
  dsimp only
  sl_unfold_words
  rw [View.canon_unit_zero hz]
  simp only [View.readAt_eq_ld, harg2.read_unread, harg3.read_unread, harg4.read_unread, harg5.read_unread, harg6.read_unread, harg7.read_unread, harg8.read_unread, harg10.read_unread,
    View.ld_unit_zero (S := S512x3072) hz, View.ld_unit_zero (S := S256x3072) hz, View.ld_unit_zero (S := S256) hz1, View.ld_unit_zero (S := S3072x256) hz, View.ld_unit_zero (S := S3072) hz1]

/-- and stores it, read back and scaled, into the output block. -/
theorem out_C_eq (c : Dev nD) (i : grid0.Coords) (arg2 : Memref sig .tc .vmem S512x3072 .bf16) (harg2 : arg2.IsWhole) (arg3 : Memref sig .tc .vmem S256x3072 .bf16) (harg3 : arg3.IsWhole) (arg4 : Memref sig .tc .vmem S256x3072 .bf16) (harg4 : arg4.IsWhole) (arg5 : Memref sig .tc .vmem S256 .f32) (harg5 : arg5.IsWhole) (arg6 : Memref sig .tc .vmem S256 .f32) (harg6 : arg6.IsWhole) (arg7 : Memref sig .tc .vmem S3072x256 .bf16) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc1 : cond1 i) (x0 : Vec F S512x3072 .bf16) (x1 : Vec F S256x3072 .bf16) (x2 : Vec F S256x3072 .bf16) (x3 : Vec F S256 .f32) (x4 : Vec F S256 .f32) (x5 : Vec F S3072x256 .bf16) (x6 : Vec F S3072 .f32) (xs : Vec F S512x3072 .f32) :
    out_C c i arg2 harg2 arg3 harg3 arg4 harg4 arg5 harg5 arg6 harg6 arg7 harg7 arg8 harg8 arg9 harg9 arg10 harg10 hc0 hc1 x0 x1 x2 x3 x4 x5 x6 xs = k0_pay3 (k0_pay2 x0 x1 x2 x3 x4 x5 xs) x6 := by
  unfold out_C
  rw [View.read_writes_eq_canon _ _ _ (cover_C c i arg2 harg2 arg3 harg3 arg4 harg4 arg5 harg5 arg6 harg6 arg7 harg7 arg8 harg8 arg9 harg9 arg10 harg10 hc0 hc1 x0 x1 x2 x3 x4 x5 x6 xs)]
  unfold kernelRun_C
  dsimp only
  sl_unfold_words
  rw [View.canon_unit_zero hz, View.readCov_unit_zero (S := S512x3072) _ hz]
  simp only [View.readAt_eq_ld, harg2.read_unread, harg3.read_unread, harg4.read_unread, harg5.read_unread, harg6.read_unread, harg7.read_unread, harg8.read_unread, harg10.read_unread,
    View.ld_unit_zero (S := S512x3072) hz, View.ld_unit_zero (S := S256x3072) hz, View.ld_unit_zero (S := S256) hz1, View.ld_unit_zero (S := S3072x256) hz, View.ld_unit_zero (S := S3072) hz1]

end Cert.KernelIdeal.Frame

end
-- ==== Proof.KiLaunch.lean ====
/-
  The run of the whole program around the fused kernel.

  The kernel is handed two arrays twice: the packed gate/up weights (their gate half through one window, their up half
  through another) and the packed scales likewise.  Each of the two is therefore held half and half by its two windows
  while the kernel runs.  After the kernel one host operation reshapes its result; every argument array ends as it
  began, and the program's result is the reshape of what the write-backs left in the kernel's result array.
-/
import proofs.«108920_j48241072668862_2_alg».proof.Proof.KiFrame
import Idealize.ShloMosaic.Lib.Pipeline.Launch

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs unscopedRest unscopedRestP)

/-- Two arrays held whole are held half and half. -/
theorem split_chain {P1 P4 P5 P6 : sProp 𝕄} {ℓ2 ℓ3 : Loc nD τ sig} (f2 : Buf (Elt F) ℓ2) (f3 : Buf (Elt F) ℓ3) :
    iprop(P1 ∗ (ℓ2 ↦{fullShare} f2) ∗ (ℓ3 ↦{fullShare} f3) ∗ P4 ∗ P5 ∗ P6)
      ⊢ iprop(P1 ∗ (ℓ2 ↦{fullShare.left} f2) ∗ (ℓ2 ↦{fullShare.right} f2) ∗ (ℓ3 ↦{fullShare.left} f3) ∗ (ℓ3 ↦{fullShare.right} f3) ∗ P4 ∗ P5 ∗ P6) := by
  iintro ⟨H1, HA, HB, H4, H5, H6⟩
  ihave HA := (pointsTo_share (PosShare.mem_left_op_right fullShare)).1 $$ HA
  icases HA with ⟨H2a, H2b⟩
  ihave HB := (pointsTo_share (PosShare.mem_left_op_right fullShare)).1 $$ HB
  icases HB with ⟨H3a, H3b⟩
  isplitl [H1]; · iexact H1
  isplitl [H2a]; · iexact H2a
  isplitl [H2b]; · iexact H2b
  isplitl [H3a]; · iexact H3a
  isplitl [H3b]; · iexact H3b
  isplitl [H4]; · iexact H4
  isplitl [H5]; · iexact H5
  iexact H6

/-- The share each window holds of its array. -/
abbrev shr : Fin cfg0.W → PosShare TreeShare := fun w => match w with
  | ⟨0, _⟩ => fullShare
  | ⟨1, _⟩ => fullShare.left
  | ⟨2, _⟩ => fullShare.right
  | ⟨3, _⟩ => fullShare.left
  | ⟨4, _⟩ => fullShare.right
  | ⟨5, _⟩ => fullShare
  | ⟨6, _⟩ => fullShare
  | ⟨7, _⟩ => fullShare

/-- The proof data hold each window's array at that share. -/
theorem share_eq (c : Dev nD) : ∀ w : Fin cfg0.W, (dats m 0 c).share w = shr w := fun
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- The eight windows' holdings, window by window. -/
theorem arrays_eq0 (c : Dev nD) (A : (w : Fin cfg0.W) → Buf (Elt F) ((cfg0.win w).arr.view.loc (c : Thread nD τ))) :
    ((dats m 0 c).arrays A : sProp 𝕄)
      = bigSep Finset.univ fun w => (((c : Thread nD τ).loc (Pipeline.arrRef spec0 w)) ↦{shr w} A w : sProp 𝕄) := by
  unfold Dat.arrays
  exact bigSep_congr fun w _ => by rw [(arr_whole0 w).set_eq_univ, share_eq]

/-- The six distinct arrays behind the eight windows, each whole. -/
theorem arrBufs_eq (c : Dev nD) (W : (b : Ref sig .tc) → Buf (Elt F) ((c : Thread nD τ).loc b)) :
    (arrBufs (Ix := Unit) (Name := ℕ) (U := UR sig nD τ) (Lvl := ℕ) spec0 c W : sProp 𝕄)
      = iprop((((c : Thread nD τ).loc main_v1) ↦{fullShare} W main_v1) ∗ (((c : Thread nD τ).loc main_v2) ↦{fullShare} W main_v2) ∗ (((c : Thread nD τ).loc main_arg2) ↦{fullShare} W main_arg2)
          ∗ (((c : Thread nD τ).loc main_v3) ↦{fullShare} W main_v3) ∗ (((c : Thread nD τ).loc main_arg4) ↦{fullShare} W main_arg4) ∗ (((c : Thread nD τ).loc main_v4) ↦{fullShare} W main_v4)) := by
  unfold arrBufs
  exact bigSep_eq_bigSepL_of_eq [main_v1, main_v2, main_arg2, main_v3, main_arg4, main_v4] (by decide) (by decide) _

/-- At the kernel's entry the arrays are dealt to the windows: the packed weights and the packed scales half and half. -/
theorem hsplit (c : Dev nD) :
    (arrBufs (Ix := Unit) (Name := ℕ) (U := UR sig nD τ) (Lvl := ℕ) spec0 c (V m c) : sProp 𝕄) ⊢ (dats m 0 c).arrays ((dats m 0 c).arrAt · 0) := by
  rw [arrBufs_eq, arrays_eq0, bigSep_W0]
  exact split_chain _ _

/-- The core's buffers when the kernel has returned: the result array at what the write-backs left. -/
abbrev Wt (c : Dev nD) : Valuation τ sig (Elt F) :=
  Function.update (V0 m c) (Proc.devRef .tc main_v4) ((dats m 0 c).arrAt 7 cfg0.N)

/-- The program's result: the reshape of the kernel's result array. -/
def out5 (c : Dev nD) : Buf (Elt F) ((c : Thread nD τ).loc main_v5) :=
  StableHlo.after hostOps1 (Wt m c) (Proc.devRef .tc main_v5)

/-- The two buffers the last host operation touches. -/
abbrev tailS : Finset (DevRef τ sig) := {Proc.devRef .tc main_v4, Proc.devRef .tc main_v5}

/-- Holding those two buffers. -/
theorem held_tailS (c : Dev nD) (W : Valuation τ sig (Elt F)) :
    (StableHlo.held (c : Thread nD τ) tailS W : sProp 𝕄)
      = iprop((((c : Thread nD τ).loc main_v4) ↦{fullShare} W (Proc.devRef .tc main_v4)) ∗ (((c : Thread nD τ).loc main_v5) ↦{fullShare} W (Proc.devRef .tc main_v5))) := by
  unfold StableHlo.held tailS
  rw [BI.bigSep_insert (by decide), BI.bigSep_singleton]
  rfl

/-- The reshape after the kernel writes its own result only. -/
theorem tail_keeps_v4 : ∀ op ∈ ([hostOps1].flatten : List (HloOp τ sig (Elt F))), Proc.devRef .tc main_v4 ∉ op.writes := by
  intro op hop
  simp only [hostOps1, List.flatten_cons, List.flatten_nil, List.append_nil, List.mem_cons, List.mem_nil_iff, or_false] at hop
  rcases hop with rfl
  simp only [StableHlo.reshape_writes, Finset.mem_singleton]
  exact StableHlo.devRef_ne_of_ne (by decide)

/-- It touches the kernel's result array and its own result. -/
theorem tail_sub : ∀ ops ∈ ([hostOps1] : List (List (HloOp τ sig (Elt F)))), ∀ op ∈ ops, op.bufs ⊆ tailS := by
  intro ops hops op hop
  simp only [List.mem_cons, List.mem_nil_iff, or_false] at hops
  rcases hops with rfl
  simp only [hostOps1, List.mem_cons, List.mem_nil_iff, or_false] at hop
  rcases hop with rfl
  rw [StableHlo.reshape_bufs]

/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem Wt_v4 (c : Dev nD) : Wt m c (Proc.devRef .tc main_v4) = (dats m 0 c).arrAt 7 cfg0.N := Function.update_self ..
theorem Wt_v5 (c : Dev nD) : Wt m c (Proc.devRef .tc main_v5) = V m c main_v5 :=
  Function.update_of_ne (StableHlo.devRef_ne_of_ne (by decide)) ..

/-- Before the reshape: the kernel's result array at what the write-backs left, the target at what it held. -/
theorem held_before (c : Dev nD) :
    (StableHlo.held (c : Thread nD τ) tailS (Wt m c) : sProp 𝕄)
      = iprop((((c : Thread nD τ).loc main_v4) ↦{fullShare} (dats m 0 c).arrAt 7 cfg0.N) ∗ (((c : Thread nD τ).loc main_v5) ↦{fullShare} V m c main_v5)) := by
  rw [held_tailS, Wt_v4, Wt_v5]

/-- After it: the result array unchanged, the target at the reshape. -/
theorem held_after (c : Dev nD) :
    (StableHlo.held (c : Thread nD τ) tailS (StableHlo.after [hostOps1].flatten (Wt m c)) : sProp 𝕄)
      = iprop((((c : Thread nD τ).loc main_v4) ↦{fullShare} (dats m 0 c).arrAt 7 cfg0.N) ∗ (((c : Thread nD τ).loc main_v5) ↦{fullShare} out5 m c)) := by
  rw [held_tailS, StableHlo.after_of_forall_not_mem (b := Proc.devRef .tc main_v4) _ _ tail_keeps_v4, Wt_v4]
  rfl

/-- What bypasses the kernel: the three arguments it is not handed directly, the reshaped x, and the result buffer. -/
abbrev Zt (c : Dev nD) : sProp 𝕄 :=
  iprop((((c : Thread nD τ).loc main_arg0) ↦{fullShare} V m c main_arg0) ∗ (((c : Thread nD τ).loc main_arg1) ↦{fullShare} V m c main_arg1) ∗ (((c : Thread nD τ).loc main_arg3) ↦{fullShare} V m c main_arg3)
    ∗ (((c : Thread nD τ).loc main_v0) ↦{fullShare} V m c main_v0) ∗ (((c : Thread nD τ).loc main_v5) ↦{fullShare} out5 m c))

set_option backward.isDefEq.respectTransparency.types false in
/-- The host operation after the kernel runs from the kernel's exit: it reads the result array and writes its reshape. -/
theorem htail (c : Dev nD) (Q' : PUnit → sProp 𝕄) :
    iprop((iprop((dats m 0 c).arrays ((dats m 0 c).arrAt · cfg0.N) ∗ Zt m c) -∗ Q' ⟨⟩)
        ∗ boundary (c : Thread nD τ) ∗ (dats m 0 c).arrays ((dats m 0 c).arrAt · cfg0.N)
        ∗ unscopedRest (Ix := Unit) (Name := ℕ) (U := UR sig nD τ) (Lvl := ℕ) spec0 c (V m c))
      ⊢ wp frame (wpE (defs (F := F)) (Variants.lift Variants.none) (c : Thread nD τ) none) Set.univ (Pipeline.chain [StableHlo.seq hostOps1]) Q' := by
  rw [arrays_eq0, bigSep_W0, unscopedRest0_eq]
  iintro ⟨Hk, Hb, ⟨A0, A1, A2, A3, A4, A5, A6, A7⟩, ⟨Z0, Z1, Z3, Zv0, Zv5⟩⟩
  ihave Hh := (Entails.of_eq (held_before m c).symm) $$ [A7 Zv5]
  · isplitl [A7]; · iexact A7
    iexact Zv5
  ihave Hw := (Pipeline.wp_seqs_then (fun q => (cfgs q).toPCfg (Val := Elt F)) defs₀ Variants.none c tailS [] [hostOps1] tail_sub tail_fresh (Wt m c)) $$ [Hb Hh]
  · isplitl [Hb]; · iexact Hb
    iexact Hh
  iapply Hw
  iintro ⟨Hb, Hh⟩
  rw [Pipeline.chain_nil, wp_pure]
  ihave Hh := (Entails.of_eq (held_after m c)) $$ Hh
  icases Hh with ⟨A7, Zv5⟩
  imodintro
  iapply Hk
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [Z0]; · iexact Z0
  isplitl [Z1]; · iexact Z1
  isplitl [Z3]; · iexact Z3
  isplitl [Zv0]; · iexact Zv0
  iexact Zv5

/-! ## The arguments reach the kernel as launched -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- After any point but the first the accumulator's named contents can be forgotten. -/
theorem Phi_out (c : Dev nD) (t : Fin (cfg0.N + 1)) (ht : t.val ≠ 0) : (dats m 0 c).Φ t ⊢ iprop(∃ d, owns (c : Thread nD τ) scM fullShare d) := by
  rw [show (dats m 0 c).Φ t = PhiS m c t.val (Nat.le_of_lt_succ t.isLt) from rfl, PhiS_pos m c _ _ ht]
  iintro H; iexists _; iexact H

/-- At the kernel's exit the accumulator is handed back at some contents. -/
theorem hout (c : Dev nD) : (dats m 0 c).Φ (Fin.last cfg0.N)
    ⊢ iprop((emp : sProp 𝕄) ∗ Pipeline.scopedRest (Ix := Unit) (Name := ℕ) (U := UR sig nD τ) (Lvl := ℕ) (Val := Elt F) spec0 c) := by
  refine (Phi_out m c (Fin.last cfg0.N) (by rw [Fin.val_last]; have : cfg0.N = 512 := N_0; omega)).trans ?_
  rw [scopedRest_eq]
  iintro H; isplitr; · iempintro
  iexact H

/-- What the run ends with: the program's result at the reshape of the kernel's result array, every argument as launched. -/
def Qf : PUnit × MemSt nD τ sig (Elt F) → Prop := fun r => ∀ c : Dev nD,
  r.2.mem ((c : Thread nD τ).loc main_v5) = out5 m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)

set_option backward.isDefEq.respectTransparency.types false in
/-- From any memory with zero counters every weakly fair execution of the program terminates, faulting nowhere, with
    the result at `out5` and the arguments unchanged. -/
theorem run_main : θ_run defs (onTc (τ := τ) (main (F := F))) ⟨m, fun _ => 0, ρ⟩ (Qf m) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main
    (fun _ => Pipeline.chain [StableHlo.seq hostOps1])
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := hsplit m)
    (hpf := fun _ k => k.elim0)
    (X := fun _ => iprop(emp)) (Y := fun _ => iprop(emp))
    (Z := fun c => unscopedRest (Ix := Unit) (Name := ℕ) (U := UR sig nD τ) (Lvl := ℕ) spec0 c (V m c)) (Z' := Zt m)
    (hX := fun c => by
      rw [Pipeline.unscopedRestP_none]
      iintro H; isplitr; · iempintro
      iexact H)
    (hin := fun c => by
      rw [show (dats m 0 c).Φ 0 = PhiS m c 0 (Nat.zero_le _) from rfl, PhiS_zero m c 0 _ rfl, scopedRest_eq]
      iintro ⟨-, -, H⟩; iexact H)
    (hout := hout m)
    (htail := htail m)
    (QY := fun c s => s.mem ((c : Thread nD τ).loc main_v5) = out5 m c ∧ s.mem ((c : Thread nD τ).loc main_arg0) = V m c main_arg0
      ∧ s.mem ((c : Thread nD τ).loc main_arg1) = V m c main_arg1 ∧ s.mem ((c : Thread nD τ).loc main_arg3) = V m c main_arg3)
    (hY := fun c s' => by
      iintro ⟨-, ⟨Z0, Z1, Z3, Zv0, Zv5⟩, HSI⟩
      icombine HSI Z0 gives %h0
      icombine HSI Z1 gives %h1
      icombine HSI Z3 gives %h3
      icombine HSI Zv5 gives %h5
      imodintro
      isplitr
      · ipureintro
        exact ⟨Buf.eq_of_forall_mem_univ h5, Buf.eq_of_forall_mem_univ h0, Buf.eq_of_forall_mem_univ h1, Buf.eq_of_forall_mem_univ h3⟩
      iexact HSI)
    (hQ := fun s h c => ⟨(h c).2.2.1, (h c).2.2.2.1.trans (V_main_arg0 m c), (h c).2.2.2.2.1.trans (V_main_arg1 m c),
      ((h c).1 3).trans (((dats m 0 c).arrAt_in 3 rfl _).trans ((A_eq m c 3).trans (V_main_arg2 m c))),
      (h c).2.2.2.2.2.trans (V_main_arg3 m c),
      ((h c).1 6).trans (((dats m 0 c).arrAt_in 6 rfl _).trans ((A_eq m c 6).trans (V_main_arg4 m c)))⟩)

end Cert.KernelIdeal.Frame

end
-- ==== Proof.LibDotRowT.lean ====
/-
  A matrix product with ONE contracted axis against a TRANSPOSED right operand, read at an index, as a sum over the
  contracted coordinate.

  For dimension numbers `d` of an [M, K] by [N, K] product into [M, N] — both operands contracted on their
  second axis — the sum over the contraction index set of `L (d.lhsIdx (p, f) k) * R (d.rhsIdx (p, f) k)` is
  `∑ k : Fin K, L (p, k) * R (f, k)`: the contraction index is its one coordinate, the left operand's row is the
  output's row and the right operand's ROW the output's column.
-/
import Idealize.ShloMosaic.Lib.ValueIdx
import Idealize.ShloMosaic.PureOps.Ideal.Laws

noncomputable section

namespace Idealize.ShloMosaic.DotRowT

open Idealize.ShloMosaic Idealize.ShloMosaic.ValueIdx

variable {M K N : Nat}

/-- The contraction's sum over its index set is the sum over the contracted coordinate. -/
theorem sum_contr (d : DotDims ⟨2, ![M, K]⟩ ⟨2, ![N, K]⟩ ⟨2, ![M, N]⟩)
    (hl : d.lhsContracting = [1]) (hr : d.rhsContracting = [1])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 0).val = (j 1).val)
    (L : (⟨2, ![M, K]⟩ : Shape).Idx → EReal) (R : (⟨2, ![N, K]⟩ : Shape).Idx → EReal) (p : Fin M) (f : Fin N) :
    ∑ k : d.contr.Idx, L (d.lhsIdx (ix2 p f) k) * R (d.rhsIdx (ix2 p f) k) = ∑ k : Fin K, L (ix2 p k) * R (ix2 f k) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 f k := by
    funext a; apply Fin.ext
    match a with
    | ⟨0, _⟩ => exact h1 _ _
    | ⟨1, _⟩ =>
      show (d.rhsIdx (ix2 p f) ((contrEquiv1 d K hrank hsize).symm k) 1).val = k.val
      rw [d.rhsIdx_val_of_single hr]
      exact contrEquiv1_symm_val d K hrank hsize k
  rw [el, er]

end Idealize.ShloMosaic.DotRowT

end
-- ==== Proof.KiPayload.lean ====
/-
  The kernel body's arithmetic, read at an index, over the extended reals.

  At one grid point the body holds a block of 512 tokens xb : [512, 3072], 256 gate rows wg and 256 up rows wu of the
  packed weights ([256, 3072] each) with their scales sg, su : [256], the matching 256 columns of the down weights
  wd : [3072, 256], and the accumulator acc : [512, 3072].  It computes

    projB (p, jj)  = (sum over h < 3072 of xb[p, h] * w[jj, h]) * s[jj]              -- a scaled row of the projection
    hidB (p, jj)   = (gate * logistic gate) * up,  gate = projB with (wg, sg), up = projB with (wu, su)
    acc' (p, o)    = acc (p, o) + sum over jj < 256 of hidB (p, jj) * wd[o, jj]

  Each matrix product contracts the SECOND axis of both operands into a zero accumulator, so its element (p, f) is the
  sum over the contracted coordinate of left row p times right ROW f.  A [256] vector cast to [1, 256] and broadcast to
  [512, 256] reads its entry jj at (p, jj).  Rounding to the narrower format is the identity here.  The first payload is
  the zero block; the last multiplies the accumulator by a [3072] vector broadcast over the rows.
-/
import proofs.«108920_j48241072668862_2_alg».proof.Proof.Gen.KernelIdeal.Skeleton
import proofs.«108920_j48241072668862_2_alg».proof.Proof.LibDotRowT
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- A scaled row of the projection inside a block: token p against weight row jj, times the row's scale. -/
def projB (xb : Vec Ideal S512x3072 .bf16) (wb : Vec Ideal S256x3072 .bf16) (sb : Vec Ideal S256 .f32) (p : Fin 512) (jj : Fin 256) : EReal :=
  (∑ h : Fin 3072, xb (ix2 p h) * wb (ix2 jj h)) * sb (ix1 jj)

/-- The gated activation inside a block: silu of the gate row times the up row. -/
def hidB (xb : Vec Ideal S512x3072 .bf16) (wg wu : Vec Ideal S256x3072 .bf16) (sg su : Vec Ideal S256 .f32) (p : Fin 512) (jj : Fin 256) : EReal :=
  (projB xb wg sg p jj * Ideal.logistic (projB xb wg sg p jj)) * projB xb wu su p jj

/-! ### The two matrix products at an element -/

/-- The [512, 3072] by [256, 3072] product into zero: element (p, jj) is the sum over h of L[p, h] * R[jj, h]. -/
theorem mm1_at (L : FVec Ideal S512x3072 .bf16) (R : FVec Ideal S256x3072 .bf16) (p : Fin 512) (jj : Fin 256) :
    matmul dot_S512x3072_S256x3072_S512x256_1_1_0_0_n_n none L R (constant S512x256 .f32 0x00000000#32) (ix2 p jj)
      = ∑ h : Fin 3072, L (ix2 p h) * R (ix2 jj h) := by
  refine (Ideal.matmul_constant_zero_apply dot_S512x3072_S256x3072_S512x256_1_1_0_0_n_n none L R (ix2 p jj)).trans ?_
  refine DotRowT.sum_contr (M := 512) (K := 3072) (N := 256) dot_S512x3072_S256x3072_S512x256_1_1_0_0_n_n rfl rfl rfl rfl ?_ ?_ L R p jj
  · intro j k
    unfold DotDims.lhsIdx
    rw [dif_neg (show ¬(0 : Fin S512x3072.rank) ∈ dot_S512x3072_S256x3072_S512x256_1_1_0_0_n_n.lhsBatch by decide),
      dif_pos (show (0 : Fin S512x3072.rank) ∈ dot_S512x3072_S256x3072_S512x256_1_1_0_0_n_n.lhsNonContracting by decide)]
    rfl
  · intro j k
    unfold DotDims.rhsIdx
    rw [dif_neg (show ¬(0 : Fin S256x3072.rank) ∈ dot_S512x3072_S256x3072_S512x256_1_1_0_0_n_n.rhsBatch by decide),
      dif_pos (show (0 : Fin S256x3072.rank) ∈ dot_S512x3072_S256x3072_S512x256_1_1_0_0_n_n.rhsNonContracting by decide)]
    rfl

/-- The [512, 256] by [3072, 256] product into zero: element (p, o) is the sum over jj of L[p, jj] * R[o, jj]. -/
theorem mm2_at (L : FVec Ideal S512x256 .bf16) (R : FVec Ideal S3072x256 .bf16) (p : Fin 512) (o : Fin 3072) :
    matmul dot_S512x256_S3072x256_S512x3072_1_1_0_0_n_n none L R (constant S512x3072 .f32 0x00000000#32) (ix2 p o)
      = ∑ jj : Fin 256, L (ix2 p jj) * R (ix2 o jj) := by
  refine (Ideal.matmul_constant_zero_apply dot_S512x256_S3072x256_S512x3072_1_1_0_0_n_n none L R (ix2 p o)).trans ?_
  refine DotRowT.sum_contr (M := 512) (K := 256) (N := 3072) dot_S512x256_S3072x256_S512x3072_1_1_0_0_n_n rfl rfl rfl rfl ?_ ?_ L R p o
  · intro j k
    unfold DotDims.lhsIdx
    rw [dif_neg (show ¬(0 : Fin S512x256.rank) ∈ dot_S512x256_S3072x256_S512x3072_1_1_0_0_n_n.lhsBatch by decide),
      dif_pos (show (0 : Fin S512x256.rank) ∈ dot_S512x256_S3072x256_S512x3072_1_1_0_0_n_n.lhsNonContracting by decide)]
    rfl
  · intro j k
    unfold DotDims.rhsIdx
    rw [dif_neg (show ¬(0 : Fin S3072x256.rank) ∈ dot_S512x256_S3072x256_S512x3072_1_1_0_0_n_n.rhsBatch by decide),
      dif_pos (show (0 : Fin S3072x256.rank) ∈ dot_S512x256_S3072x256_S512x3072_1_1_0_0_n_n.rhsNonContracting by decide)]
    rfl

/-! ### A vector broadcast over the rows -/

/-- A [256] vector as a [1, 256] row broadcast to [512, 256] reads its entry jj at (p, jj). -/
theorem row256_at (v : FVec Ideal S256 .f32) (p : Fin 512) (jj : Fin 256) :
    broadcastTo S512x256 (shapeCast S1x256 v shapeCasts_S256_S1x256) broadcasts_S1x256_S512x256 (ix2 p jj) = v (ix1 jj) :=
  (broadcastTo_1b_ab_apply (a := 512) (b := 256) _ broadcasts_S1x256_S512x256 p jj).trans
    (shapeCast_a_1a_apply (a := 256) v shapeCasts_S256_S1x256 0 jj)

/-- A [3072] vector as a [1, 3072] row broadcast to [512, 3072] reads its entry o at (p, o). -/
theorem row3072_at (v : FVec Ideal S3072 .f32) (p : Fin 512) (o : Fin 3072) :
    broadcastTo S512x3072 (shapeCast S1x3072 v shapeCasts_S3072_S1x3072) broadcasts_S1x3072_S512x3072 (ix2 p o) = v (ix1 o) :=
  (broadcastTo_1b_ab_apply (a := 512) (b := 3072) _ broadcasts_S1x3072_S512x3072 p o).trans
    (shapeCast_a_1a_apply (a := 3072) v shapeCasts_S3072_S1x3072 0 o)

/-! ### A scaled product and the gate, at an element -/

/-- A product into zero times the broadcast scale row is a scaled row of the projection. -/
theorem scaled_at (xb : FVec Ideal S512x3072 .bf16) (wb : FVec Ideal S256x3072 .bf16) (sb : FVec Ideal S256 .f32) (p : Fin 512) (jj : Fin 256) :
    mulf (matmul dot_S512x3072_S256x3072_S512x256_1_1_0_0_n_n none xb wb (constant S512x256 .f32 0x00000000#32))
        (broadcastTo S512x256 (shapeCast S1x256 sb shapeCasts_S256_S1x256) broadcasts_S1x256_S512x256) (ix2 p jj)
      = projB xb wb sb p jj := by
  rw [mulf_apply, mm1_at, row256_at]
  rfl

/-- Gate times its logistic times up, rounded to the narrower format, is that expression element by element. -/
theorem gated_at (A B : FVec Ideal S512x256 .f32) (i : S512x256.Idx) :
    truncf .bf16 (mulf (mulf A (logistic A)) B) bitsLt_bf16_f32 i = (A i * Ideal.logistic (A i)) * B i := rfl

/-! ### The three payloads -/

/-- The first payload is the zero block. -/
theorem pay1_at (p : Fin 512) (o : Fin 3072) : k0_pay1 (F := Ideal) (ix2 p o) = 0 := by
  unfold k0_pay1
  refine (congrFun (shapeCast_self _ shapeCasts_S512x3072_S512x3072) (ix2 p o)).trans ?_
  exact Ideal.ofBits_zero_f32

/-- The second payload adds to the accumulator the block's gated activation against the down-weight rows. -/
theorem pay2_at (v3 : Vec Ideal S512x3072 .bf16) (v5 v7 : Vec Ideal S256x3072 .bf16) (v10 v15 : Vec Ideal S256 .f32)
    (v23 : Vec Ideal S3072x256 .bf16) (v26 : Vec Ideal S512x3072 .f32) (p : Fin 512) (o : Fin 3072) :
    k0_pay2 (F := Ideal) v3 v5 v7 v10 v15 v23 v26 (ix2 p o)
      = v26 (ix2 p o) + ∑ jj : Fin 256, hidB v3 v5 v7 v10 v15 p jj * v23 (ix2 o jj) := by
  unfold k0_pay2
  simp only [shapeCast_self]
  rw [addf_apply, mm2_at]
  refine congrArg (v26 (ix2 p o) + ·) (Finset.sum_congr rfl fun jj _ => ?_)
  rw [gated_at, scaled_at, scaled_at]
  rfl

/-- The third payload scales the accumulator by the output channel's scale. -/
theorem pay3_at (v34 : Vec Ideal S512x3072 .f32) (v35 : Vec Ideal S3072 .f32) (p : Fin 512) (o : Fin 3072) :
    k0_pay3 (F := Ideal) v34 v35 (ix2 p o) = v34 (ix2 p o) * v35 (ix1 o) := by
  unfold k0_pay3
  rw [mulf_apply, row3072_at]

end Cert.KernelIdeal.Pay

end
-- ==== Proof.Spec.lean ====
/-
  The mathematics both programs compute, as one function of the five argument arrays over the extended reals.

  With x : [4, 2048, 3072], the packed gate/up weights w : [16384, 3072] (integers), their per-row scales
  sc : [16384], the down weights wd : [3072, 8192] (integers) and their per-row scales ds : [3072]:

    proj (b, s, j)   = (sum over h of x[b, s, h] * w[j, h]) * sc[j]                       for j < 16384
    hidden (b, s, j) = (proj j * logistic (proj j)) * proj (8192 + j)                      for j < 8192
    G (b, s, o)      = (sum over j < 8192 of hidden (b, s, j) * wd[o, j]) * ds[o]

  An integer weight enters as the real number it denotes.  `sum_blocks` is the one law the two sides need: a sum over
  m * n terms is the sum, block by block, of the sums over each block of n consecutive terms.
-/
import Idealize.ShloMosaic.PureOps.Ideal
import Idealize.ShloMosaic.Lib.ValueIdx

noncomputable section

namespace Cert.Spec

open Idealize.ShloMosaic Idealize.ShloMosaic.ValueIdx

abbrev SX : Shape := ⟨3, ![4, 2048, 3072]⟩
abbrev SGU : Shape := ⟨2, ![16384, 3072]⟩
abbrev SGS : Shape := ⟨1, ![16384]⟩
abbrev SDW : Shape := ⟨2, ![3072, 8192]⟩
abbrev SDS : Shape := ⟨1, ![3072]⟩

/-- An integer word as the real number it denotes. -/
abbrev ofInt (b : BitVec 32) : EReal := ((b.toInt : ℝ) : EReal)

/-- Row `j` of the packed projection at token `(b, s)`: the dot product of the token with weight row `j`, scaled. -/
def proj (x : FVec Ideal SX .f32) (w : IVec SGU 32) (sc : FVec Ideal SGS .f32) (b : Fin 4) (s : Fin 2048) (j : Fin 16384) : EReal :=
  (∑ h : Fin 3072, x (ix3 b s h) * ofInt (w (ix2 j h))) * sc (ix1 j)

/-- The gate row of intermediate channel `j`, -/
abbrev gateRow (j : Fin 8192) : Fin 16384 := ⟨j.val, by omega⟩
/-- and its up row, in the second half of the packed weights. -/
abbrev upRow (j : Fin 8192) : Fin 16384 := ⟨8192 + j.val, by omega⟩

/-- The gated intermediate activation: silu of the gate row times the up row. -/
def hidden (x : FVec Ideal SX .f32) (w : IVec SGU 32) (sc : FVec Ideal SGS .f32) (b : Fin 4) (s : Fin 2048) (j : Fin 8192) : EReal :=
  (proj x w sc b s (gateRow j) * Ideal.logistic (proj x w sc b s (gateRow j))) * proj x w sc b s (upRow j)

/-- The result: the down projection of the gated activation, scaled per output channel. -/
def G (x : FVec Ideal SX .f32) (w : IVec SGU 32) (sc : FVec Ideal SGS .f32) (wd : IVec SDW 32) (ds : FVec Ideal SDS .f32) :
    FVec Ideal SX .f32 := fun i =>
  (∑ j : Fin 8192, hidden x w sc (i 0) (i 1) j * ofInt (wd (ix2 (i 2) j))) * ds (ix1 (i 2))

/-- A sum over `m * n` terms, taken block by block. -/
theorem sum_blocks {M : Type*} [AddCommMonoid M] (m n : ℕ) (t : Fin (m * n) → M) :
    ∑ k : Fin m, ∑ jj : Fin n, t (finProdFinEquiv (k, jj)) = ∑ j : Fin (m * n), t j := by
  rw [← Fintype.sum_prod_type' (f := fun k jj => t (finProdFinEquiv (k, jj)))]
  exact Equiv.sum_comp finProdFinEquiv t

end Cert.Spec

end
-- ==== Proof.KiBlocks.lean ====
/-
  What each input window's block holds, in terms of the five argument arrays.

  The grid is 16 row tiles by 32 tiles of the intermediate axis; point t is row tile t / 32 at intermediate tile t % 32.
  Before the call the host flattens x : [4, 2048, 3072] to [8192, 3072] (row r is token (r / 2048, r % 2048); the change
  of format that follows is the identity) and converts the integer weights to floats (each entry becomes the real number
  its word denotes).  A block's coordinate in its array is always block index * block size + the coordinate inside the
  block, so at point t:

    window 0   rows 512 (t / 32) + p of the flattened x                         p < 512
    window 1   rows 256 (t % 32) + jj of the packed weights: the gate rows      jj < 256
    window 2   rows 8192 + 256 (t % 32) + jj of the packed weights: the up rows
    window 3   entries 256 (t % 32) + jj of the packed scales
    window 4   entries 8192 + 256 (t % 32) + jj of the packed scales
    window 5   columns 256 (t % 32) + jj of the down weights, all 3072 rows
    window 6   all of the down scales
-/
import proofs.«108920_j48241072668862_2_alg».proof.Proof.KiSched
import proofs.«108920_j48241072668862_2_alg».proof.Proof.Spec
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Cert.KernelIdeal.Frame Idealize.ShloMosaic Idealize.ShloMosaic.ValueIdx Idealize.ShloMosaic.TcCoe
open Idealize.ShloMosaic.StableHlo Idealize.SL.Sem

variable (m : (ℓ : Loc nD τ sig) → Buf (Elt Ideal) ℓ) (c : Dev nD) (t : Fin cfg0.N)

/-! ### The block indices -/

/-- The grid's block indices, decided once over its 512 points: point t is row tile t / 32 at intermediate tile t % 32. -/
theorem idx_facts : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val % 32 + 32 ∧ win0_2.index t (1 : Fin 2) = 0
    ∧ win0_3.index t (0 : Fin 1) = t.val % 32
    ∧ win0_4.index t (0 : Fin 1) = t.val % 32 + 32
    ∧ win0_5.index t (0 : Fin 2) = 0 ∧ win0_5.index t (1 : Fin 2) = t.val % 32
    ∧ win0_6.index t (0 : Fin 1) = 0 :=
  (by decide +kernel : ∀ t : Fin grid0.N, _)

/-! ### The arrays the host operations leave untouched -/

/-- The packed scales are as launched. -/
theorem V_arg2 : V m c main_arg2 = m ((c : Thread nD τ).loc main_arg2) := by
  dsimp only [V, V0]
  simp only [hostOps0, List.flatten_cons, List.flatten_nil, List.append_nil]
  after_results

/-- The down scales are as launched. -/
theorem V_arg4 : V m c main_arg4 = m ((c : Thread nD τ).loc main_arg4) := by
  dsimp only [V, V0]
  simp only [hostOps0, List.flatten_cons, List.flatten_nil, List.append_nil]
  after_results

/-! ### The arrays as the kernel finds them, at an index -/

/-- The converted packed weights: each entry is the real number the integer word denotes. -/
theorem V_v2_at (r : Fin 16384) (h : Fin 3072) :
    (V m c main_v2 : S16384x3072.Idx → EReal) (ix2 r h)
      = Cert.Spec.ofInt ((m ((c : Thread nD τ).loc main_arg1) : S16384x3072.Idx → BitVec 32) (ix2 r h)) := by
  have e : (V m c main_v2 : S16384x3072.Idx → EReal)
      = sitofp (F := Ideal) .bf16 (m ((c : Thread nD τ).loc main_arg1) : S16384x3072.Idx → BitVec 32) := by
    dsimp only [V, V0]
    simp only [hostOps0, List.flatten_cons, List.flatten_nil, List.append_nil]
    after_results
    try rfl
  rw [e]
  rfl

/-- The converted down weights, likewise. -/
theorem V_v3_at (o : Fin 3072) (k : Fin 8192) :
    (V m c main_v3 : S3072x8192.Idx → EReal) (ix2 o k)
      = Cert.Spec.ofInt ((m ((c : Thread nD τ).loc main_arg3) : S3072x8192.Idx → BitVec 32) (ix2 o k)) := by
  have e : (V m c main_v3 : S3072x8192.Idx → EReal)
      = sitofp (F := Ideal) .bf16 (m ((c : Thread nD τ).loc main_arg3) : S3072x8192.Idx → BitVec 32) := by
    dsimp only [V, V0]
    simp only [hostOps0, List.flatten_cons, List.flatten_nil, List.append_nil]
    after_results
    try rfl
  rw [e]
  rfl

/-- The activations flattened to [8192, 3072]: row r is token (r / 2048, r % 2048); the change of format is the identity. -/
theorem V_v1_at (r : Fin 8192) (h : Fin 3072) :
    (V m c main_v1 : S8192x3072.Idx → EReal) (ix2 r h)
      = (m ((c : Thread nD τ).loc main_arg0) : S4x2048x3072.Idx → EReal)
          (ix3 (⟨r.val / 2048, by have := r.isLt; omega⟩ : Fin 4) (⟨r.val % 2048, by omega⟩ : Fin 2048) h) := by
  have e : (V m c main_v1 : S8192x3072.Idx → EReal)
      = truncf (F := Ideal) .bf16 (shapeCast S8192x3072 (m ((c : Thread nD τ).loc main_arg0) : S4x2048x3072.Idx → EReal)
          shapeCasts_S4x2048x3072_S8192x3072) bitsLt_bf16_f32 := by
    dsimp only [V, V0]
    simp only [hostOps0, List.flatten_cons, List.flatten_nil, List.append_nil]
    after_results
    try rfl
  rw [e]
  show shapeCast S8192x3072 (m ((c : Thread nD τ).loc main_arg0) : S4x2048x3072.Idx → EReal) shapeCasts_S4x2048x3072_S8192x3072 (ix2 r h) = _
  refine shapeCast_apply _ _ _ _ ?_
  show ((⟨3, ![4, 2048, 3072]⟩ : Shape).rowMajor (ix3 (⟨r.val / 2048, by have := r.isLt; omega⟩ : Fin 4) (⟨r.val % 2048, by omega⟩ : Fin 2048) h)).val
      = ((⟨2, ![8192, 3072]⟩ : Shape).rowMajor (ix2 r h)).val
  rw [Shape.rowMajor_val_three, Shape.rowMajor_val_two]
  show (r.val / 2048 * 2048 + r.val % 2048) * 3072 + h.val = r.val * 3072 + h.val
  have := Nat.div_add_mod r.val 2048
  omega

/-! ### The seven blocks -/

/-- Window 0: rows 512 (t / 32) + p of the flattened activations, i.e. token ((512 (t / 32) + p) / 2048, (512 (t / 32) + p) % 2048). -/
theorem blk0_at (p : Fin 512) (h : Fin 3072) :
    (iblk m c 0 t : S512x3072.Idx → EReal) (ix2 p h)
      = m ((c : Thread nD τ).loc main_arg0)
          (ix3 (⟨(t.val / 32 * 512 + p.val) / 2048, by have := t.isLt; have := p.isLt; have : cfg0.N = 512 := N_0; omega⟩ : Fin 4)
            (⟨(t.val / 32 * 512 + p.val) % 2048, by omega⟩ : Fin 2048) h) := by
  obtain ⟨e00, e01, e10, e11, e20, e21, e3, e4, e50, e51, e6⟩ := idx_facts t
  have ht : t.val < 512 := by have := t.isLt; have : cfg0.N = 512 := N_0; omega
  refine Eq.trans ?_ (V_v1_at m c (⟨t.val / 32 * 512 + p.val, by have := p.isLt; omega⟩ : Fin 8192) h)
  unfold iblk
  rw [View.read_apply]
  show (V m c main_v1 : S8192x3072.Idx → EReal) _ = _
  refine congrArg _ (funext fun a => Fin.ext ?_)
  match a with
  | ⟨0, _⟩ => show win0_0.index t (0 : Fin 2) * 512 + 1 * p.val = t.val / 32 * 512 + p.val; rw [e00]; omega
  | ⟨1, _⟩ => show win0_0.index t (1 : Fin 2) * 3072 + 1 * h.val = h.val; rw [e01]; omega

/-- Window 1: the gate rows 256 (t % 32) + jj of the packed weights. -/
theorem blk1_at (jj : Fin 256) (h : Fin 3072) :
    (iblk m c 1 t : S256x3072.Idx → EReal) (ix2 jj h)
      = Cert.Spec.ofInt (m ((c : Thread nD τ).loc main_arg1)
          (ix2 (⟨t.val % 32 * 256 + jj.val, by have := jj.isLt; omega⟩ : Fin 16384) h)) := by
  obtain ⟨e00, e01, e10, e11, e20, e21, e3, e4, e50, e51, e6⟩ := idx_facts t
  refine Eq.trans ?_ (V_v2_at m c _ h)
  unfold iblk
  rw [View.read_apply]
  show (V m c main_v2 : S16384x3072.Idx → EReal) _ = _
  refine congrArg _ (funext fun a => Fin.ext ?_)
  match a with
  | ⟨0, _⟩ => show win0_1.index t (0 : Fin 2) * 256 + 1 * jj.val = t.val % 32 * 256 + jj.val; rw [e10]; omega
  | ⟨1, _⟩ => show win0_1.index t (1 : Fin 2) * 3072 + 1 * h.val = h.val; rw [e11]; omega

/-- Window 2: the up rows 8192 + 256 (t % 32) + jj of the packed weights. -/
theorem blk2_at (jj : Fin 256) (h : Fin 3072) :
    (iblk m c 2 t : S256x3072.Idx → EReal) (ix2 jj h)
      = Cert.Spec.ofInt (m ((c : Thread nD τ).loc main_arg1)
          (ix2 (⟨8192 + (t.val % 32 * 256 + jj.val), by have := jj.isLt; omega⟩ : Fin 16384) h)) := by
  obtain ⟨e00, e01, e10, e11, e20, e21, e3, e4, e50, e51, e6⟩ := idx_facts t
  refine Eq.trans ?_ (V_v2_at m c _ h)
  unfold iblk
  rw [View.read_apply]
  show (V m c main_v2 : S16384x3072.Idx → EReal) _ = _
  refine congrArg _ (funext fun a => Fin.ext ?_)
  match a with
  | ⟨0, _⟩ => show win0_2.index t (0 : Fin 2) * 256 + 1 * jj.val = 8192 + (t.val % 32 * 256 + jj.val); rw [e20]; omega
  | ⟨1, _⟩ => show win0_2.index t (1 : Fin 2) * 3072 + 1 * h.val = h.val; rw [e21]; omega

/-- Window 3: the scales of the gate rows. -/
theorem blk3_at (jj : Fin 256) :
    (iblk m c 3 t : S256.Idx → EReal) (ix1 jj)
      = m ((c : Thread nD τ).loc main_arg2) (ix1 (⟨t.val % 32 * 256 + jj.val, by have := jj.isLt; omega⟩ : Fin 16384)) := by
  obtain ⟨e00, e01, e10, e11, e20, e21, e3, e4, e50, e51, e6⟩ := idx_facts t
  unfold iblk
  rw [View.read_apply]
  show V m c main_arg2 _ = _
  rw [V_arg2]
  refine congrArg _ (funext fun a => Fin.ext ?_)
  match a with
  | ⟨0, _⟩ => show win0_3.index t (0 : Fin 1) * 256 + 1 * jj.val = t.val % 32 * 256 + jj.val; rw [e3]; omega

/-- Window 4: the scales of the up rows. -/
theorem blk4_at (jj : Fin 256) :
    (iblk m c 4 t : S256.Idx → EReal) (ix1 jj)
      = m ((c : Thread nD τ).loc main_arg2) (ix1 (⟨8192 + (t.val % 32 * 256 + jj.val), by have := jj.isLt; omega⟩ : Fin 16384)) := by
  obtain ⟨e00, e01, e10, e11, e20, e21, e3, e4, e50, e51, e6⟩ := idx_facts t
  unfold iblk
  rw [View.read_apply]
  show V m c main_arg2 _ = _
  rw [V_arg2]
  refine congrArg _ (funext fun a => Fin.ext ?_)
  match a with
  | ⟨0, _⟩ => show win0_4.index t (0 : Fin 1) * 256 + 1 * jj.val = 8192 + (t.val % 32 * 256 + jj.val); rw [e4]; omega

/-- Window 5: columns 256 (t % 32) + jj of the down weights, every output row o. -/
theorem blk5_at (o : Fin 3072) (jj : Fin 256) :
    (iblk m c 5 t : S3072x256.Idx → EReal) (ix2 o jj)
      = Cert.Spec.ofInt (m ((c : Thread nD τ).loc main_arg3)
          (ix2 o (⟨t.val % 32 * 256 + jj.val, by have := jj.isLt; omega⟩ : Fin 8192))) := by
  obtain ⟨e00, e01, e10, e11, e20, e21, e3, e4, e50, e51, e6⟩ := idx_facts t
  refine Eq.trans ?_ (V_v3_at m c o _)
  unfold iblk
  rw [View.read_apply]
  show (V m c main_v3 : S3072x8192.Idx → EReal) _ = _
  refine congrArg _ (funext fun a => Fin.ext ?_)
  match a with
  | ⟨0, _⟩ => show win0_5.index t (0 : Fin 2) * 3072 + 1 * o.val = o.val; rw [e50]; omega
  | ⟨1, _⟩ => show win0_5.index t (1 : Fin 2) * 256 + 1 * jj.val = t.val % 32 * 256 + jj.val; rw [e51]; omega

/-- Window 6: all of the down scales. -/
theorem blk6_at (o : Fin 3072) :
    (iblk m c 6 t : S3072.Idx → EReal) (ix1 o) = m ((c : Thread nD τ).loc main_arg4) (ix1 o) := by
  obtain ⟨e00, e01, e10, e11, e20, e21, e3, e4, e50, e51, e6⟩ := idx_facts t
  unfold iblk
  rw [View.read_apply]
  show V m c main_arg4 _ = _
  rw [V_arg4]
  refine congrArg _ (funext fun a => Fin.ext ?_)
  match a with
  | ⟨0, _⟩ => show win0_6.index t (0 : Fin 1) * 3072 + 1 * o.val = o.val; rw [e6]; omega

end Cert.KernelIdeal.Blocks

end
-- ==== Proof.KiTile.lean ====
/-
  One row tile's contributions add up to the specification's sum.

  At grid point t (row tile t / 32, intermediate tile t % 32) the body adds to the accumulator, at row p and output
  channel o, the partial product

    part t (p, o) = sum over jj < 256 of hidB (p, jj) * wd-block (o, jj),

  where hidB is the gated activation computed from the point's blocks.  Read through what the blocks hold, hidB (p, jj) is
  the specification's gated activation of token ((512 (t / 32) + p) / 2048, (512 (t / 32) + p) % 2048) at intermediate
  channel 256 (t % 32) + jj: the gate row of that channel is row 256 (t % 32) + jj of the packed weights and its up row
  is row 8192 + 256 (t % 32) + jj, each with its scale.  The 32 points of row tile r therefore contribute the channels
  256 k … 256 k + 255 for k = 0 … 31, which are all 8192 channels, each once: a sum over 32 * 256 terms taken block
  by block.
-/
import proofs.«108920_j48241072668862_2_alg».proof.Proof.KiPayload
import proofs.«108920_j48241072668862_2_alg».proof.Proof.KiBlocks
import proofs.«108920_j48241072668862_2_alg».proof.Proof.Spec

noncomputable section

namespace Cert.KernelIdeal.Tile

open Cert.KernelIdeal Cert.KernelIdeal.Gen Cert.KernelIdeal.Frame Cert.KernelIdeal.Pay Cert.KernelIdeal.Blocks
open Idealize.ShloMosaic Idealize.ShloMosaic.ValueIdx Idealize.ShloMosaic.TcCoe Idealize.SL.Sem

variable (m : (ℓ : Loc nD τ sig) → Buf (Elt Ideal) ℓ) (c : Dev nD)

/-- The partial product grid point t adds to the accumulator at row p, output channel o. -/
def part (t : Fin cfg0.N) (p : Fin 512) (o : Fin 3072) : EReal :=
  ∑ jj : Fin 256, hidB (iblk m c 0 t) (iblk m c 1 t) (iblk m c 2 t) (iblk m c 3 t) (iblk m c 4 t) p jj
    * (iblk m c 5 t : S3072x256.Idx → EReal) (ix2 o jj)

/-! ### The block's projections are the specification's -/

/-- The block's scaled gate row jj is the projection's gate row of channel 256 (t % 32) + jj, at the row's token. -/
theorem projG_at (t : Fin cfg0.N) (p : Fin 512) (jj : Fin 256) :
    projB (iblk m c 0 t) (iblk m c 1 t) (iblk m c 3 t) p jj
      = Cert.Spec.proj (m ((c : Thread nD τ).loc main_arg0)) (m ((c : Thread nD τ).loc main_arg1)) (m ((c : Thread nD τ).loc main_arg2))
          (⟨(t.val / 32 * 512 + p.val) / 2048, by have := t.isLt; have := p.isLt; have : cfg0.N = 512 := N_0; omega⟩ : Fin 4)
          (⟨(t.val / 32 * 512 + p.val) % 2048, by omega⟩ : Fin 2048)
          (Cert.Spec.gateRow (⟨t.val % 32 * 256 + jj.val, by have := jj.isLt; omega⟩ : Fin 8192)) := by
  unfold projB Cert.Spec.proj
  rw [blk3_at]
  refine congrArg₂ (· * ·) (Finset.sum_congr rfl fun h _ => ?_) rfl
  rw [blk0_at, blk1_at]

/-- The block's scaled up row jj is the projection's up row of the same channel. -/
theorem projU_at (t : Fin cfg0.N) (p : Fin 512) (jj : Fin 256) :
    projB (iblk m c 0 t) (iblk m c 2 t) (iblk m c 4 t) p jj
      = Cert.Spec.proj (m ((c : Thread nD τ).loc main_arg0)) (m ((c : Thread nD τ).loc main_arg1)) (m ((c : Thread nD τ).loc main_arg2))
          (⟨(t.val / 32 * 512 + p.val) / 2048, by have := t.isLt; have := p.isLt; have : cfg0.N = 512 := N_0; omega⟩ : Fin 4)
          (⟨(t.val / 32 * 512 + p.val) % 2048, by omega⟩ : Fin 2048)
          (Cert.Spec.upRow (⟨t.val % 32 * 256 + jj.val, by have := jj.isLt; omega⟩ : Fin 8192)) := by
  unfold projB Cert.Spec.proj
  rw [blk4_at]
  refine congrArg₂ (· * ·) (Finset.sum_congr rfl fun h _ => ?_) rfl
  rw [blk0_at, blk2_at]

/-- So the block's gated activation is the specification's, at the row's token and the block's channel. -/
theorem hid_at (t : Fin cfg0.N) (p : Fin 512) (jj : Fin 256) :
    hidB (iblk m c 0 t) (iblk m c 1 t) (iblk m c 2 t) (iblk m c 3 t) (iblk m c 4 t) p jj
      = Cert.Spec.hidden (m ((c : Thread nD τ).loc main_arg0)) (m ((c : Thread nD τ).loc main_arg1)) (m ((c : Thread nD τ).loc main_arg2))
          (⟨(t.val / 32 * 512 + p.val) / 2048, by have := t.isLt; have := p.isLt; have : cfg0.N = 512 := N_0; omega⟩ : Fin 4)
          (⟨(t.val / 32 * 512 + p.val) % 2048, by omega⟩ : Fin 2048)
          (⟨t.val % 32 * 256 + jj.val, by have := jj.isLt; omega⟩ : Fin 8192) := by
  unfold hidB Cert.Spec.hidden
  rw [projG_at, projU_at]

/-! ### A row tile's 32 points cover the 8192 intermediate channels -/

/-- A term of the specification's sum depends on the token and the channel only through their values. -/
theorem term_congr (x : FVec Ideal Cert.Spec.SX .f32) (w : IVec Cert.Spec.SGU 32) (sc : FVec Ideal Cert.Spec.SGS .f32)
    (wd : IVec Cert.Spec.SDW 32) (o : Fin 3072) {b b' : Fin 4} {s s' : Fin 2048} {j j' : Fin 8192}
    (hb : b = b') (hs : s = s') (hj : j = j') :
    Cert.Spec.hidden x w sc b s j * Cert.Spec.ofInt (wd (ix2 o j))
      = Cert.Spec.hidden x w sc b' s' j' * Cert.Spec.ofInt (wd (ix2 o j')) := by
  subst hb hs hj; rfl

/-- The 32 points of row tile r add, at row p and output channel o, the specification's whole sum over the 8192
    intermediate channels: point 32 r + k contributes channels 256 k … 256 k + 255. -/
theorem tile_total (r : Fin 16) (p : Fin 512) (o : Fin 3072) :
    ∑ k : Fin 32, part m c (⟨r.val * 32 + k.val, by have hN : cfg0.N = 512 := N_0; have := r.isLt; have := k.isLt; omega⟩ : Fin cfg0.N) p o
      = ∑ j : Fin 8192, Cert.Spec.hidden (m ((c : Thread nD τ).loc main_arg0)) (m ((c : Thread nD τ).loc main_arg1)) (m ((c : Thread nD τ).loc main_arg2))
          (⟨(r.val * 512 + p.val) / 2048, by have := r.isLt; have := p.isLt; omega⟩ : Fin 4)
          (⟨(r.val * 512 + p.val) % 2048, by omega⟩ : Fin 2048) j
          * Cert.Spec.ofInt (m ((c : Thread nD τ).loc main_arg3) (ix2 o j)) := by
  refine Eq.trans ?_ (Cert.Spec.sum_blocks 32 256 (fun j : Fin (32 * 256) =>
    Cert.Spec.hidden (m ((c : Thread nD τ).loc main_arg0)) (m ((c : Thread nD τ).loc main_arg1)) (m ((c : Thread nD τ).loc main_arg2))
      (⟨(r.val * 512 + p.val) / 2048, by have := r.isLt; have := p.isLt; omega⟩ : Fin 4)
      (⟨(r.val * 512 + p.val) % 2048, by omega⟩ : Fin 2048) j
      * Cert.Spec.ofInt (m ((c : Thread nD τ).loc main_arg3) (ix2 o j))))
  refine Finset.sum_congr rfl fun k _ => ?_
  unfold part
  refine Finset.sum_congr rfl fun jj _ => ?_
  rw [hid_at, blk5_at]
  have hk := k.isLt
  have hjj := jj.isLt
  have hr := r.isLt
  refine term_congr _ _ _ _ o (Fin.ext ?_) (Fin.ext ?_) (Fin.ext ?_)
  · show ((r.val * 32 + k.val) / 32 * 512 + p.val) / 2048 = (r.val * 512 + p.val) / 2048
    have : (r.val * 32 + k.val) / 32 = r.val := by omega
    rw [this]
  · show ((r.val * 32 + k.val) / 32 * 512 + p.val) % 2048 = (r.val * 512 + p.val) % 2048
    have : (r.val * 32 + k.val) / 32 = r.val := by omega
    rw [this]
  · show (r.val * 32 + k.val) % 32 * 256 + jj.val = (finProdFinEquiv (k, jj) : Fin (32 * 256)).val
    rw [finProdFinEquiv_apply_val]
    show (r.val * 32 + k.val) % 32 * 256 + jj.val = jj.val + 256 * k.val
    omega

end Cert.KernelIdeal.Tile

end
-- ==== Proof.KiValue.lean ====
/-
  The value of the fused kernel over the extended reals.

  After the point (row tile r, intermediate tile k) the accumulator holds, at row p and output channel o, the sum over
  the tiles 0 … k of the row tile of their partial products (the cleared accumulator contributes zero).  So at the last
  tile the output block holds the sum over all 32 tiles, scaled by the output channel's scale — which is the
  specification's value at token row r * 512 + p.  The blocks written back tile the kernel's result array, and the
  program's result is its reshape to [4, 2048, 3072].
-/
import proofs.«108920_j48241072668862_2_alg».proof.Proof.KiPieces
import proofs.«108920_j48241072668862_2_alg».proof.Proof.KiLaunch
import proofs.«108920_j48241072668862_2_alg».proof.Proof.KiTile

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

open Cert.KernelIdeal.Frame Cert.KernelIdeal.Pay Cert.KernelIdeal.Blocks Cert.KernelIdeal.Tile Idealize.ShloMosaic.ValueIdx

/-! ## One point's contribution -/

/-- At a first tile the accumulator ends at the tile's partial product: the cleared accumulator adds zero. -/
theorem first_at (t : Fin cfg0.N) (p : Fin 512) (o : Fin 3072) :
    k0_pay2 (F := Ideal) (iblk m c 0 t) (iblk m c 1 t) (iblk m c 2 t) (iblk m c 3 t) (iblk m c 4 t) (iblk m c 5 t) (k0_pay1 (F := Ideal)) (ix2 p o) = part m c t p o := by
  rw [pay2_at, pay1_at, zero_add]; rfl

/-- At a later tile the partial product is added to what the accumulator held. -/
theorem later_at (t : Fin cfg0.N) (xs : Vec Ideal S512x3072 .f32) (p : Fin 512) (o : Fin 3072) :
    k0_pay2 (F := Ideal) (iblk m c 0 t) (iblk m c 1 t) (iblk m c 2 t) (iblk m c 3 t) (iblk m c 4 t) (iblk m c 5 t) xs (ix2 p o) = xs (ix2 p o) + part m c t p o := by
  rw [pay2_at]; rfl

/-- The partial product of point `n` (zero beyond the grid). -/
def partN (n : ℕ) (p : Fin 512) (o : Fin 3072) : EReal := if h : n < cfg0.N then part m c ⟨n, h⟩ p o else 0

theorem partN_of_lt (n : ℕ) (h : n < cfg0.N) (p : Fin 512) (o : Fin 3072) : partN m c n p o = part m c ⟨n, h⟩ p o := dif_pos h

/-- The sum over the tiles so far of a row tile, at its first tile, -/
theorem range_start (f : ℕ → EReal) (n : ℕ) (h0 : n % 32 = 0) : ∑ k ∈ Finset.range (n % 32 + 1), f (n - n % 32 + k) = f n := by
  rw [h0]; simp
/-- and one tile further. -/
theorem range_step (f : ℕ → EReal) (n : ℕ) (h0 : ¬(n + 1) % 32 = 0) :
    ∑ k ∈ Finset.range ((n + 1) % 32 + 1), f (n + 1 - (n + 1) % 32 + k) = ∑ k ∈ Finset.range (n % 32 + 1), f (n - n % 32 + k) + f (n + 1) := by
  have e1 : (n + 1) % 32 = n % 32 + 1 := by omega
  have e2 : n + 1 - (n + 1) % 32 = n - n % 32 := by omega
  have e3 : n - n % 32 + (n % 32 + 1) = n + 1 := by omega
  rw [e2, e1, Finset.sum_range_succ, e3]

/-! ## The accumulator, point by point -/

/-- After point `n` the accumulator holds the sum of the partial products of its row tile's points up to `n`. -/
theorem acc_at : ∀ (n : ℕ) (h : n < cfg0.N) (p : Fin 512) (o : Fin 3072),
    (outsAt m c n h).2 (ix2 p o) = ∑ k ∈ Finset.range (n % 32 + 1), partN m c (n - n % 32 + k) p o
  | 0, h, p, o => by
    rw [range_start (fun n => partN m c n p o) 0 rfl, partN_of_lt m c 0 h]
    have e := outsAt_A m c ⟨0, h⟩ rfl (by show ¬((0 : ℕ) % 32 = 31); decide)
    rw [show outsAt m c 0 h = outsAt m c (⟨0, h⟩ : Fin cfg0.N).val (⟨0, h⟩ : Fin cfg0.N).isLt from rfl, e]
    dsimp only
    rw [sout_A_eq]
    exact first_at m c ⟨0, h⟩ p o
  | n + 1, h, p, o => by
    by_cases h0 : (n + 1) % 32 = 0
    · have h1 : ¬(n + 1) % 32 = 31 := by omega
      rw [range_start (fun n => partN m c n p o) (n + 1) h0, partN_of_lt m c (n + 1) h]
      have e := outsAt_A m c ⟨n + 1, h⟩ h0 h1
      rw [show outsAt m c (n + 1) h = outsAt m c (⟨n + 1, h⟩ : Fin cfg0.N).val (⟨n + 1, h⟩ : Fin cfg0.N).isLt from rfl, e]
      dsimp only
      rw [sout_A_eq]
      exact first_at m c ⟨n + 1, h⟩ p o
    · have ih := acc_at n (Nat.lt_of_succ_lt h) p o
      rw [range_step (fun n => partN m c n p o) n h0, partN_of_lt m c (n + 1) h, ← ih]
      by_cases h1 : (n + 1) % 32 = 31
      · have e := outsAt_C m c ⟨n + 1, h⟩ h0 h1
        rw [show outsAt m c (n + 1) h = outsAt m c (⟨n + 1, h⟩ : Fin cfg0.N).val (⟨n + 1, h⟩ : Fin cfg0.N).isLt from rfl, e]
        dsimp only
        rw [sout_C_eq]
        exact later_at m c ⟨n + 1, h⟩ _ p o
      · have e := outsAt_B m c ⟨n + 1, h⟩ h0 h1
        rw [show outsAt m c (n + 1) h = outsAt m c (⟨n + 1, h⟩ : Fin cfg0.N).val (⟨n + 1, h⟩ : Fin cfg0.N).isLt from rfl, e]
        dsimp only
        rw [sout_B_eq]
        exact later_at m c ⟨n + 1, h⟩ _ p o

/-! ## The output block at a last tile -/

/-- The block stored at the last tile of a row tile: the sum of the row tile's 32 partial products, scaled. -/
theorem block_at (t : Fin cfg0.N) (h1 : t.val % 32 = 31) (p : Fin 512) (o : Fin 3072) :
    (outsAt m c t.val t.isLt).1 (ix2 p o)
      = (∑ k ∈ Finset.range 32, partN m c (t.val - 31 + k) p o) * (m ((c : Thread nD τ).loc main_arg4)) (ix1 o) := by
  have h0 : ¬t.val % 32 = 0 := by omega
  have ea := acc_at m c t.val t.isLt p o
  rw [outsAt_C m c t h0 h1] at ea ⊢
  dsimp only at ea ⊢
  rw [sout_C_eq] at ea
  rw [out_C_eq, pay3_at, ea, h1, blk6_at]

/-- Those 32 partial products add up to the specification's sum over the intermediate axis at the block's token row. -/
theorem block_total (t : Fin cfg0.N) (h1 : t.val % 32 = 31) (p : Fin 512) (o : Fin 3072) :
    ∑ k ∈ Finset.range 32, partN m c (t.val - 31 + k) p o
      = ∑ j : Fin 8192, Cert.Spec.hidden (m ((c : Thread nD τ).loc main_arg0)) (m ((c : Thread nD τ).loc main_arg1)) (m ((c : Thread nD τ).loc main_arg2)) ⟨(t.val / 32 * 512 + p.val) / 2048, by have := t.isLt; have : cfg0.N = 512 := N_0; have := p.isLt; omega⟩
          ⟨(t.val / 32 * 512 + p.val) % 2048, by omega⟩ j * Cert.Spec.ofInt ((m ((c : Thread nD τ).loc main_arg3)) (ix2 o j)) := by
  have hN : cfg0.N = 512 := N_0
  have ht := t.isLt
  rw [Finset.sum_range]
  have e : ∀ k : Fin 32, partN m c (t.val - 31 + k.val) p o = part m c ⟨(⟨t.val / 32, by omega⟩ : Fin 16).val * 32 + k.val, by have := k.isLt; dsimp only; omega⟩ p o := fun k => by
    have hk := k.isLt
    rw [partN_of_lt m c _ (by omega)]
    congr 1
    apply Fin.ext
    dsimp only
    omega
  rw [Finset.sum_congr rfl fun k _ => e k]
  exact tile_total m c ⟨t.val / 32, by omega⟩ p o

/-! ## The kernel's result array -/

/-- Row R of the kernel's [8192, 3072] result is the specification at token (R / 2048, R % 2048). -/
def FA : S8192x3072.Idx → EReal := fun i =>
  Cert.Spec.G (m ((c : Thread nD τ).loc main_arg0)) (m ((c : Thread nD τ).loc main_arg1)) (m ((c : Thread nD τ).loc main_arg2)) (m ((c : Thread nD τ).loc main_arg3)) (m ((c : Thread nD τ).loc main_arg4))
    (ix3 ⟨(i 0).val / 2048, by have h : (i 0).val < 8192 := (i 0).isLt; omega⟩ ⟨(i 0).val % 2048, by omega⟩ (i 1))

theorem FA_at (i : S8192x3072.Idx) (R : ℕ) (o : Fin 3072) (hR : R < 8192) (h0 : (i 0).val = R) (h1 : i 1 = o) :
    FA m c i = (∑ j : Fin 8192, Cert.Spec.hidden (m ((c : Thread nD τ).loc main_arg0)) (m ((c : Thread nD τ).loc main_arg1)) (m ((c : Thread nD τ).loc main_arg2)) ⟨R / 2048, by omega⟩ ⟨R % 2048, by omega⟩ j * Cert.Spec.ofInt ((m ((c : Thread nD τ).loc main_arg3)) (ix2 o j))) * (m ((c : Thread nD τ).loc main_arg4)) (ix1 o) := by
  subst h0 h1; rfl

/-- The output window's block index: the row tile, and the one column block. -/
theorem idx7 : ∀ t : Fin cfg0.N, win0_7.index t (0 : Fin 2) = t.val / 32 ∧ win0_7.index t (1 : Fin 2) = 0 :=
  (by decide +kernel : ∀ t : Fin grid0.N, win0_7.index t (0 : Fin 2) = t.val / 32 ∧ win0_7.index t (1 : Fin 2) = 0)

/-- What a last tile writes back is its block of `FA`. -/
theorem flushed_eq (t : Fin cfg0.N) (hf : (cfg0.win 7).flush t = true) :
    (dats m 0 c).flushed 7 t = ((cfg0.win 7).blk t).view.read (Elt Ideal) (FA m c) := by
  have h1 : t.val % 32 = 31 := (flush0_7 t).mp hf
  have hN : cfg0.N = 512 := N_0
  have ht := t.isLt
  show (cfg0.win 7).cut (grid0.coords t) ((dats m 0 c).after 7 t) = _
  rw [after7]
  funext y
  rw [View.read_apply]
  obtain ⟨p, o, rfl⟩ : ∃ (p : Fin 512) (o : Fin 3072), y = ix2 p o := ⟨y 0, y 1, eq_ix2 y⟩
  show (outsAt m c t.val t.isLt).1 (ix2 p o) = FA m c (((cfg0.win 7).blk t).view.emb (ix2 p o))
  obtain ⟨e0, e1⟩ := idx7 t
  have hp := p.isLt
  rw [block_at m c t h1, block_total m c t h1]
  refine (FA_at m c _ (t.val / 32 * 512 + p.val) o (by omega) ?_ ?_).symm
  · show win0_7.index t (0 : Fin 2) * 512 + 1 * p.val = _
    rw [e0]; omega
  · apply Fin.ext
    show win0_7.index t (1 : Fin 2) * 3072 + 1 * o.val = o.val
    rw [e1]; omega

/-- An index of the result array is in point `t`'s block iff each coordinate is in the block's range. -/
theorem mem_blk7 (t : Fin cfg0.N) (i : S8192x3072.Idx) :
    i ∈ ((cfg0.win 7).blk t).view.set ↔ ∀ a : Fin 2, win0_7.index t a * S512x3072.size a ≤ (i a).val ∧ (i a).val < win0_7.index t a * S512x3072.size a + S512x3072.size a := by
  show i ∈ ((View.whole main_v4).slice (win0_7.rect t)).set ↔ _
  rw [View.set_slice_whole, Rect.mem_set_unit]
  exact Iff.rfl

/-- Every row of the result array lies in the block its row tile writes back at its last tile. -/
theorem cover7 (i : S8192x3072.Idx) : ∃ t : Fin cfg0.N, (cfg0.win 7).flush t = true ∧ i ∈ ((cfg0.win 7).blk t).view.set := by
  have hi0 : (i 0).val < 8192 := (i 0).isLt
  have hi1 : (i 1).val < 3072 := (i 1).isLt
  have hN : cfg0.N = 512 := N_0
  refine ⟨⟨(i 0).val / 512 * 32 + 31, by omega⟩, (flush0_7 _).mpr (by dsimp only; omega), ?_⟩
  rw [mem_blk7]
  obtain ⟨e0, e1⟩ := idx7 ⟨(i 0).val / 512 * 32 + 31, by omega⟩
  intro a
  match a with
  | ⟨0, _⟩ =>
    show win0_7.index _ (0 : Fin 2) * 512 ≤ (i 0).val ∧ (i 0).val < win0_7.index _ (0 : Fin 2) * 512 + 512
    rw [e0]; dsimp only; omega
  | ⟨1, _⟩ =>
    show win0_7.index _ (1 : Fin 2) * 3072 ≤ (i 1).val ∧ (i 1).val < win0_7.index _ (1 : Fin 2) * 3072 + 3072
    rw [e1]; omega

/-- So the kernel's result array ends holding `FA`. -/
theorem final7 : (dats m 0 c).arrAt 7 cfg0.N = FA m c :=
  (dats m 0 c).arrAt_eq_of_cover 7 (FA m c) (fun t hf => flushed_eq m c t hf) cover7

end Cert.KernelIdeal.Result

end
-- ==== Proof.KiReshape.lean ====
/-
  The host operation after the kernel is a reshape.

  The kernel leaves its result in an [8192, 3072] array, one row per token in row-major order of (batch, position);
  the program's result is that array read as [4, 2048, 3072].  Two indices that name the same row-major position name
  the same element, and (b, s, o) of the result has the position ((2048 b + s) 3072 + o) of row 2048 b + s, column o.
-/
import proofs.«108920_j48241072668862_2_alg».proof.Proof.KiLaunch
import Idealize.ShloMosaic.Lib.Pipeline.Value
import Idealize.ShloMosaic.Lib.ValueIdx
import Idealize.ShloMosaic.Lib.StableHlo.Run

noncomputable section

namespace Cert.KernelIdeal.Reshape

open Cert.KernelIdeal Cert.KernelIdeal.Gen Cert.KernelIdeal.Frame Idealize.ShloMosaic Idealize.ShloMosaic.ValueIdx Idealize.ShloMosaic.TcCoe
open Idealize.ShloMosaic.StableHlo Idealize.SL.Sem

variable {F : FTy → Type} [FloatOps F]
variable (m : (ℓ : Loc nD τ sig) → Buf (Elt F) ℓ)

/-- The program's result is the kernel's result array, read in the result's shape. -/
theorem out5_eq (c : Dev nD) :
    (out5 m c : S4x2048x3072.Idx → Elt F .f32)
      = shapeCast S4x2048x3072 ((dats m 0 c).arrAt 7 cfg0.N : S8192x3072.Idx → Elt F .f32) shapeCasts_S8192x3072_S4x2048x3072 := by
  unfold out5
  simp only [hostOps1]
  after_results
  rw [Wt_v4]
  rfl

/-- Element (b, s, o) of the program's result is row 2048 b + s, column o of the kernel's result array. -/
theorem out5_at (c : Dev nD) (b : Fin 4) (s : Fin 2048) (o : Fin 3072) :
    (out5 m c : S4x2048x3072.Idx → Elt F .f32) (ix3 b s o)
      = ((dats m 0 c).arrAt 7 cfg0.N : S8192x3072.Idx → Elt F .f32)
          (ix2 (⟨b.val * 2048 + s.val, by have := b.isLt; have := s.isLt; omega⟩ : Fin 8192) o) := by
  rw [out5_eq]
  refine shapeCast_apply _ _ _ _ ?_
  show ((⟨2, ![8192, 3072]⟩ : Shape).rowMajor (ix2 (⟨b.val * 2048 + s.val, by have := b.isLt; have := s.isLt; omega⟩ : Fin 8192) o)).val
      = ((⟨3, ![4, 2048, 3072]⟩ : Shape).rowMajor (ix3 b s o)).val
  exact (Shape.rowMajor_val_two (d := ![8192, 3072])
      (ix2 (⟨b.val * 2048 + s.val, by have := b.isLt; have := s.isLt; omega⟩ : Fin 8192) o)).trans
    (Shape.rowMajor_val_three (d := ![4, 2048, 3072]) (ix3 b s o)).symm

end Cert.KernelIdeal.Reshape

end
-- ==== Proof.RefSide.lean ====
/-
  The reference program computes the specification's function `G`.

  Read one operation at a time, the reference forms, for a token (b, s):
    stage 4:  (sum over h of x[b, s, h] * w[j, h]) * sc[j]          -- the packed projection, row j < 16384
    stage 5 / stage 6: its rows j and 8192 + j for j < 8192        -- the gate half and the up half
    stage 7:  g * (1 / (1 + exp (-g)))                              -- silu of the gate row, i.e. g * logistic g
    stage 8:  silu (gate) * up                                      -- the gated activation
    stage 13: (sum over j < 8192 of stage 8 [b, s, j] * wd[o, j]) * ds[o]
  An integer weight enters through the signed conversion to a float, which over the extended reals is the real
  number the word denotes.  Both sides are the same expression index by index; no finiteness is involved.
-/
import proofs.«108920_j48241072668862_2_alg».proof.Defs
import proofs.«108920_j48241072668862_2_alg».proof.Proof.Gen.ReferenceIdeal.Run
import proofs.«108920_j48241072668862_2_alg».proof.Proof.Gen.ReferenceIdeal.Read
import proofs.«108920_j48241072668862_2_alg».proof.Proof.Spec
import Idealize.ShloMosaic.Lib.ValueIdx
import Idealize.ShloMosaic.PureOps.Ideal.Laws

noncomputable section

namespace Cert.RefSide

open Cert.ReferenceIdeal Cert.ReferenceIdeal.Read Idealize.ShloMosaic Idealize.ShloMosaic.ValueIdx

/-- The float word of the literal 1.0 denotes the real number one. -/
theorem one_word : Ideal.ofBits .f32 0x3F800000#32 = 1 := by
  simp [Ideal.ofBits, Ideal.ieee, -EReal.coe_mul]; norm_num

section Stages

variable (x0 : (⟨S4x2048x3072, .f32⟩ : BufTy).Contents (Elt Ideal))
  (x1 : (⟨S16384x3072, .i32⟩ : BufTy).Contents (Elt Ideal))
  (x2 : (⟨S16384, .f32⟩ : BufTy).Contents (Elt Ideal))
  (x3 : (⟨S3072x8192, .i32⟩ : BufTy).Contents (Elt Ideal))
  (x4 : (⟨S3072, .f32⟩ : BufTy).Contents (Elt Ideal))

/-! ### Where each operation reads its operands -/

/-- The first contraction reads the token (b, s) at position k … -/
theorem lidx1 (b : Fin 4) (s : Fin 2048) (j : Fin 16384) (k : Fin 3072) :
    lidx_main_v1 (ix3 b s j) k = ix3 b s k :=
  funext fun a => by match a with | ⟨0, _⟩ => rfl | ⟨1, _⟩ => rfl | ⟨2, _⟩ => rfl

/-- … against weight row j at position k. -/
theorem ridx1 (b : Fin 4) (s : Fin 2048) (j : Fin 16384) (k : Fin 3072) :
    ridx_main_v1 (ix3 b s j) k = ix2 j k :=
  funext fun a => by match a with | ⟨0, _⟩ => rfl | ⟨1, _⟩ => rfl

/-- The scale of row j is broadcast over all tokens. -/
theorem sidx (b : Fin 4) (s : Fin 2048) (j : Fin 16384) :
    idx_main_v2 (idx_main_v3 (ix3 b s j)) = ix1 j :=
  funext fun a => by match a with | ⟨0, _⟩ => rfl

/-- The first slice keeps row j: the gate row. -/
theorem gidx (b : Fin 4) (s : Fin 2048) (j : Fin 8192) :
    idx_main_v5 (ix3 b s j) = ix3 b s (Cert.Spec.gateRow j) :=
  funext fun a => by match a with | ⟨0, _⟩ => rfl | ⟨1, _⟩ => rfl | ⟨2, _⟩ => rfl

/-- The second slice reads row 8192 + j: the up row. -/
theorem uidx (b : Fin 4) (s : Fin 2048) (j : Fin 8192) :
    idx_main_v6 (ix3 b s j) = ix3 b s (Cert.Spec.upRow j) :=
  funext fun a => by match a with | ⟨0, _⟩ => rfl | ⟨1, _⟩ => rfl | ⟨2, _⟩ => rfl

/-- The second contraction reads the gated activation of the token (b, s) at channel k … -/
theorem lidx10 (b : Fin 4) (s : Fin 2048) (o : Fin 3072) (k : Fin 8192) :
    lidx_main_v10 (ix3 b s o) k = ix3 b s k :=
  funext fun a => by match a with | ⟨0, _⟩ => rfl | ⟨1, _⟩ => rfl | ⟨2, _⟩ => rfl

/-- … against down-weight row o at channel k. -/
theorem ridx10 (b : Fin 4) (s : Fin 2048) (o : Fin 3072) (k : Fin 8192) :
    ridx_main_v10 (ix3 b s o) k = ix2 o k :=
  funext fun a => by match a with | ⟨0, _⟩ => rfl | ⟨1, _⟩ => rfl

/-- The scale of output channel o is broadcast over all tokens. -/
theorem didx (b : Fin 4) (s : Fin 2048) (o : Fin 3072) :
    idx_main_v11 (idx_main_v12 (ix3 b s o)) = ix1 o :=
  funext fun a => by match a with | ⟨0, _⟩ => rfl

/-! ### The stages at an index -/

/-- Stage 4 is the scaled packed projection. -/
theorem v4_at (b : Fin 4) (s : Fin 2048) (j : Fin 16384) :
    val_main_v4 (F := Ideal) x0 x1 x2 (ix3 b s j) = Cert.Spec.proj x0 x1 x2 b s j := by
  rw [val_main_v4_apply, val_main_v1_apply, val_main_v3_apply, val_main_v2_apply]
  simp only [lidx1, ridx1, sidx, val_main_v0_apply]
  rfl

/-- Stage 8 is silu of the gate row times the up row; the host's silu g * (1 / (1 + exp (-g))) is g * logistic g. -/
theorem v8_at (b : Fin 4) (s : Fin 2048) (j : Fin 8192) :
    val_main_v8 (F := Ideal) x0 x1 x2 (ix3 b s j) = Cert.Spec.hidden x0 x1 x2 b s j := by
  rw [val_main_v8_apply, val_main_v7_apply, val_main_v6_apply, val_main_call0_v5_apply, val_main_call0_v4_apply,
    val_main_call0_cst_0_apply, val_main_call0_v3_apply, val_main_call0_v2_apply, val_main_call0_cst_apply,
    val_main_call0_v1_apply, val_main_call0_v0_apply, val_main_v5_apply, gidx, uidx, v4_at, v4_at,
    Ideal.ofBits_def, one_word]
  rfl

end Stages

/-- The reference's result is the specification, index by index. -/
theorem ref_eq (x0 : (⟨Cert.ReferenceIdeal.S4x2048x3072, .f32⟩ : BufTy).Contents (Elt Ideal))
    (x1 : (⟨Cert.ReferenceIdeal.S16384x3072, .i32⟩ : BufTy).Contents (Elt Ideal))
    (x2 : (⟨Cert.ReferenceIdeal.S16384, .f32⟩ : BufTy).Contents (Elt Ideal))
    (x3 : (⟨Cert.ReferenceIdeal.S3072x8192, .i32⟩ : BufTy).Contents (Elt Ideal))
    (x4 : (⟨Cert.ReferenceIdeal.S3072, .f32⟩ : BufTy).Contents (Elt Ideal)) :
    Cert.ReferenceIdeal.Read.val_main_v13 (F := Ideal) x0 x1 x2 x3 x4 = Cert.Spec.G x0 x1 x2 x3 x4 := by
  funext i
  obtain ⟨b, s, o, rfl⟩ : ∃ (b : Fin 4) (s : Fin 2048) (o : Fin 3072), i = ix3 b s o := ⟨i 0, i 1, i 2, eq_ix3 i⟩
  rw [val_main_v13_apply, val_main_v10_apply, val_main_v12_apply, val_main_v11_apply]
  simp only [lidx10, ridx10, didx, v8_at, val_main_v9_apply]
  rfl

end Cert.RefSide

end
-- ==== Proof.lean ====
/-
  The certificate of the fused gated projection kernel against its reference, over the extended reals.

  Both programs compute, for every token (b, s) and output channel o,

      (sum over j < 8192 of hidden (b, s, j) * wd[o, j]) * ds[o],
      hidden (b, s, j) = (g * logistic g) * u,   g = (x[b, s, :] . w[j, :]) * sc[j],   u = (x[b, s, :] . w[8192 + j, :]) * sc[8192 + j],

  the integer weights read as the real numbers they denote (`Cert.Spec.G`).  The reference computes it with two
  whole contractions; the kernel tiles the tokens into 16 row tiles and the intermediate axis into 32 tiles, adds the
  tiles' partial products into an accumulator in tile order, and scales at the last tile.  The one law that joins the two
  is that a sum over 8192 terms is the sum, tile by tile, of the sums over each tile of 256 terms — associativity and
  commutativity of addition, which hold on the extended reals without any finiteness; the kernel's logistic and the
  reference's 1 / (1 + exp (-g)) are one function there.  No rewrite was applied when the kernel was read at the
  extended reals, so that conjunct is trivial.  The three frames are the three runs with their value dropped.
-/
import proofs.«108920_j48241072668862_2_alg».proof.Defs
import proofs.«108920_j48241072668862_2_alg».proof.Proof.Gen.Kernel
import proofs.«108920_j48241072668862_2_alg».proof.Proof.Gen.KernelIdeal
import proofs.«108920_j48241072668862_2_alg».proof.Proof.Gen.ReferenceIdeal
import proofs.«108920_j48241072668862_2_alg».proof.Proof.Gen.Pre_finite_inputs
import proofs.«108920_j48241072668862_2_alg».proof.Proof.KbLaunch
import proofs.«108920_j48241072668862_2_alg».proof.Proof.KiValue
import proofs.«108920_j48241072668862_2_alg».proof.Proof.KiReshape
import proofs.«108920_j48241072668862_2_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs to the end, faults nowhere and leaves its arguments unchanged. -/
theorem frame_k : Cert.frame_Kernel := fun m ρ _ =>
  (θ_run Cert.Kernel.defs _ _).mono (fun _ h c => (h c).2) (Cert.Kernel.Frame.run_main (F := Bits) m ρ)

/-- So does the kernel read over the extended reals, -/
theorem frame_ki : Cert.frame_KernelIdeal := fun m ρ _ =>
  (θ_run Cert.KernelIdeal.defs _ _).mono (fun _ h c => (h c).2) (Cert.KernelIdeal.Frame.run_main (F := Ideal) m ρ)

/-- and the reference. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result: row b * 2048 + s of its [8192, 3072] result array is token (b, s) of the specification, and the
    program's result is that array reshaped. -/
theorem kernel_result (m : (ℓ : Loc Cert.KernelIdeal.nD Cert.KernelIdeal.τ Cert.KernelIdeal.sig) → Buf (Elt Ideal) ℓ) (c : Dev Cert.KernelIdeal.nD) :
    Cert.KernelIdeal.Frame.out5 m c = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  funext i
  obtain ⟨b, s, o, rfl⟩ : ∃ (b : Fin 4) (s : Fin 2048) (o : Fin 3072), i = ix3 b s o := ⟨i 0, i 1, i 2, eq_ix3 i⟩
  rw [Cert.KernelIdeal.Reshape.out5_at, Cert.KernelIdeal.Result.final7]
  have hb := b.isLt
  have hs := s.isLt
  unfold Cert.KernelIdeal.Result.FA
  dsimp only
  congr 1
  funext a
  match a with
  | ⟨0, _⟩ => exact Fin.ext (by show (b.val * 2048 + s.val) / 2048 = b.val; omega)
  | ⟨1, _⟩ => exact Fin.ext (by show (b.val * 2048 + s.val) % 2048 = s.val; omega)
  | ⟨2, _⟩ => rfl

/-- From memories agreeing on the arguments both programs end with the specification's array. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun _ h c => ⟨(h c).1.trans (kernel_result m c), (h c).2⟩)
      (Cert.KernelIdeal.Frame.run_main (F := Ideal) m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v13_eq, Cert.RefSide.ref_eq, (hagree c).1, (hagree c).2.1, (hagree c).2.2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
